-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S1600000x128 : Shape := ⟨2, ![1600000, 128]⟩
abbrev S100000x64 : Shape := ⟨2, ![100000, 64]⟩
abbrev S5000x1 : Shape := ⟨2, ![5000, 1]⟩
abbrev S5000x64 : Shape := ⟨2, ![5000, 64]⟩
abbrev S1600000x64 : Shape := ⟨2, ![1600000, 64]⟩

abbrev nBuf : Space → Nat
  | .hbm => 90
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x1, .f32⟩
  | .hbm, ⟨47, _⟩ => ⟨S1x128, .f32⟩
  | .hbm, ⟨48, _⟩ => ⟨S1x64, .f32⟩
  | .hbm, ⟨49, _⟩ => ⟨S1x128, .f32⟩
  | .hbm, ⟨50, _⟩ => ⟨S1x64, .f32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S1600000x1, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x64, .f32⟩
  | .hbm, ⟨71, _⟩ => ⟨S100000x64, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .bf16⟩
  | .hbm, ⟨81, _⟩ => ⟨S1600000x64, .f32⟩
  | .hbm, ⟨82, _⟩ => ⟨S1600000x1, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S64_S1x64_1 : S64.BroadcastsInDim S1x64 (![1] : Fin 1 → Fin S1x64.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S100000x64.size a
  hwx2_9 : ∀ i : grid2.Coords, EltTy.bits .f32 = 32 ∨ (Rect.block (s := S100000x64) S5000x64.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v48_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call1_cst : Ref sig .tc := ⟨.hbm, 120, rfl⟩
abbrev main_call1_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run, with its result named.

  The program is three row-blocked kernels among stretches of host operations. Its run from any launch memory ends,
  on every device, with each buffer that is never scoped holding what the fold of the program's segments leaves in
  it: a host stretch applies its operations to the contents before it, a kernel region replaces each of its output
  arrays by the write-backs of its grid points and leaves every other buffer alone. The frame keeps of this only
  that the arguments end as launched; here the returned array is kept as well, at the last fold's contents.
-/
import proofs.«149143_j24481313587803_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the returned array ends at the last
    segment boundary's contents of its buffer, and the argument arrays end as launched. -/
theorem run : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.ValueRun

end
-- ==== Proof.ChainA1.lean ====
/-
  The first stretch of host operations, read at the buffers the later segments use: the two rows of the edge list
  (sources, destinations), the per-edge normaliser (the product of the two end points' inverse square-root degrees, where
  a degree is one plus the number of edges arriving), and the column of inverse degrees. Each is the reference's own
  stage of the edge list: the two programs apply the same operations here.
-/
import proofs.«149143_j24481313587803_2_alg».proof.Proof.Gen.KernelIdeal.Frame
import proofs.«149143_j24481313587803_2_alg».proof.Proof.Gen.ReferenceIdeal.Read

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The sources row of the edge list. -/
theorem W1_v1 (c : Dev nD) : W1 (F := Ideal) m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp
  try rfl

/-- The destinations row of the edge list. -/
theorem W1_v3 (c : Dev nD) : W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  try rfl

/-- The per-edge normaliser, as the reference's first layer computes it. -/
theorem W1_v27 (c : Dev nD) : W1 (F := Ideal) m ρ c (Proc.devRef .tc main_v27) = Cert.ReferenceIdeal.Read.val_main_v28 (F := Ideal) (m ((c : Thread nD τ).loc main_arg1)) := by
  show StableHlo.after hostOps0 (W0 m ρ c) (Proc.devRef .tc main_v27) = _
  dsimp only [hostOps0]
  after_results_simp
  try rfl

/-- The per-edge normaliser, as the reference's second layer computes it again. -/
theorem W1_v27b (c : Dev nD) : W1 (F := Ideal) m ρ c (Proc.devRef .tc main_v27) = Cert.ReferenceIdeal.Read.val_main_v65 (F := Ideal) (m ((c : Thread nD τ).loc main_arg1)) := by
  show StableHlo.after hostOps0 (W0 m ρ c) (Proc.devRef .tc main_v27) = _
  dsimp only [hostOps0]
  after_results_simp
  try rfl

/-- The column of inverse degrees, as the reference's first layer spreads it. -/
theorem W1_v28 (c : Dev nD) : W1 (F := Ideal) m ρ c (Proc.devRef .tc main_v28) = Cert.ReferenceIdeal.Read.val_main_v42 (F := Ideal) (m ((c : Thread nD τ).loc main_arg1)) := by
  show StableHlo.after hostOps0 (W0 m ρ c) (Proc.devRef .tc main_v28) = _
  dsimp only [hostOps0]
  after_results_simp
  try rfl

/-- The column of inverse degrees, as the reference's second layer spreads it. -/
theorem W1_v28b (c : Dev nD) : W1 (F := Ideal) m ρ c (Proc.devRef .tc main_v28) = Cert.ReferenceIdeal.Read.val_main_v79 (F := Ideal) (m ((c : Thread nD τ).loc main_arg1)) := by
  show StableHlo.after hostOps0 (W0 m ρ c) (Proc.devRef .tc main_v28) = _
  dsimp only [hostOps0]
  after_results_simp
  try rfl

end Cert.KernelIdeal.Chain

end
-- ==== Proof.ChainA2.lean ====
/-
  The first stretch of host operations, continued: the four bias vectors turned into rows, and the arguments the
  stretch does not write.
-/
import proofs.«149143_j24481313587803_2_alg».proof.Proof.Gen.KernelIdeal.Frame
import proofs.«149143_j24481313587803_2_alg».proof.Proof.Gen.ReferenceIdeal.Read

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The first convolution's bias as a row. -/
theorem W1_v29 (c : Dev nD) : W1 (F := Ideal) m ρ c (Proc.devRef .tc main_v29) = Cert.ReferenceIdeal.Read.val_main_v46 (F := Ideal) (m ((c : Thread nD τ).loc main_arg3)) := by
  show StableHlo.after hostOps0 (W0 m ρ c) (Proc.devRef .tc main_v29) = _
  dsimp only [hostOps0]
  after_results_simp
  try rfl

/-- The second convolution's bias as a row. -/
theorem W1_v30 (c : Dev nD) : W1 (F := Ideal) m ρ c (Proc.devRef .tc main_v30) = Cert.ReferenceIdeal.Read.val_main_v83 (F := Ideal) (m ((c : Thread nD τ).loc main_arg5)) := by
  show StableHlo.after hostOps0 (W0 m ρ c) (Proc.devRef .tc main_v30) = _
  dsimp only [hostOps0]
  after_results_simp
  try rfl

/-- The perceptron's first bias as a row. -/
theorem W1_v31 (c : Dev nD) : W1 (F := Ideal) m ρ c (Proc.devRef .tc main_v31) = Cert.ReferenceIdeal.Read.val_main_v87 (F := Ideal) (m ((c : Thread nD τ).loc main_arg7)) := by
  show StableHlo.after hostOps0 (W0 m ρ c) (Proc.devRef .tc main_v31) = _
  dsimp only [hostOps0]
  after_results_simp
  try rfl

/-- The perceptron's second bias as a row. -/
theorem W1_v32 (c : Dev nD) : W1 (F := Ideal) m ρ c (Proc.devRef .tc main_v32) = Cert.ReferenceIdeal.Read.val_main_v92 (F := Ideal) (m ((c : Thread nD τ).loc main_arg9)) := by
  show StableHlo.after hostOps0 (W0 m ρ c) (Proc.devRef .tc main_v32) = _
  dsimp only [hostOps0]
  after_results_simp
  try rfl

/-- Argument 0 is not written by the first stretch. -/
theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  dsimp only [hostOps0]
  after_results_simp
  try rfl

/-- Argument 2 is not written by the first stretch. -/
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  dsimp only [hostOps0]
  after_results_simp
  try rfl

/-- Argument 4 is not written by the first stretch. -/
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  dsimp only [hostOps0]
  after_results_simp
  try rfl

/-- Argument 6 is not written by the first stretch. -/
theorem W1_arg6 (c : Dev nD) : W1 (F := Ideal) m ρ c (Proc.devRef .tc main_arg6) = (m ((c : Thread nD τ).loc main_arg6)) := by
  show StableHlo.after hostOps0 (W0 m ρ c) (Proc.devRef .tc main_arg6) = _
  dsimp only [hostOps0]
  after_results_simp
  try rfl

/-- Argument 8 is not written by the first stretch. -/
theorem W1_arg8 (c : Dev nD) : W1 (F := Ideal) m ρ c (Proc.devRef .tc main_arg8) = (m ((c : Thread nD τ).loc main_arg8)) := by
  show StableHlo.after hostOps0 (W0 m ρ c) (Proc.devRef .tc main_arg8) = _
  dsimp only [hostOps0]
  after_results_simp
  try rfl

end Cert.KernelIdeal.Chain

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Region0.lean ====
/-
  The first kernel: a product of the node features with a weight matrix, twenty row blocks of 5000 rows.

  Grid point `t` loads rows `5000·t … 5000·t + 4999` of the left operand and the whole right operand, forms their
  product into a zero accumulator, and writes it back twice: as it is, and once more through a change of float format,
  which is the identity on extended reals. Row `5000·t + r`, column `c` of either result is therefore
  `∑ k, A (5000·t + r, k) · W (k, c)`, which is the entry of the whole product `A · W` — the host's `dot_general` — at that
  row and column: the blocks are the restrictions of one whole-array function, and they cover the array.
-/
import proofs.«149143_j24481313587803_2_alg».proof.Proof.Gen.KernelIdeal.Frame
import proofs.«149143_j24481313587803_2_alg».proof.Proof.Gen.ReferenceIdeal.Read
import proofs.«149143_j24481313587803_2_alg».proof.Proof.LibPlainMatmul
set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's product at row `r`, column `cc` of the block. -/
theorem prod_apply (v0 : Vec Ideal S5000x128 .f32) (v2 : Vec Ideal S128x128 .f32) (r : Fin 5000) (cc : Fin 128) :
    k0_pay1 (F := Ideal) v0 v2 (ix2 r cc) = ∑ k : Fin 128, v0 (ix2 r k) * v2 (ix2 k cc) := by
  unfold k0_pay1
  exact Cert.LibPlainMatmul.matmul_zero_apply 5000 128 128 none _ _ r cc

/-- A block's product is the whole product read where the block lies: if the left block holds rows `5000·tv …` of `A`
    and the right block is `W`, entry `j` of the block's product is the entry of `A · W` at row `5000·tv + j₀`, column `j₁`. -/
theorem point (A : S100000x128.Idx → EReal) (W : S128x128.Idx → EReal)
    (x0 : Vec Ideal S5000x128 .f32) (x1 : Vec Ideal S128x128 .f32) (tv : ℕ)
    (hx0 : ∀ (r : Fin 5000) (k : Fin 128) (i : S100000x128.Idx), (i 0).val = tv * 5000 + r.val → (i 1).val = k.val →
      x0 (ix2 r k) = A i)
    (hx1 : ∀ (k : Fin 128) (cc : Fin 128) (i : S128x128.Idx), (i 0).val = k.val → (i 1).val = cc.val → x1 (ix2 k cc) = W i)
    (j : S5000x128.Idx) (i : S100000x128.Idx) (hi0 : (i 0).val = tv * 5000 + (j 0).val) (hi1 : (i 1).val = (j 1).val) :
    k0_pay1 (F := Ideal) x0 x1 j = Cert.ReferenceIdeal.Read.val_main_v13 (F := Ideal) A W i := by
  obtain ⟨r, cc, rfl⟩ : ∃ (r : Fin 5000) (cc : Fin 128), j = ix2 r cc := ⟨j 0, j 1, eq_ix2 j⟩
  rw [Cert.ReferenceIdeal.Read.val_main_v13_apply, prod_apply]
  exact Finset.sum_congr rfl fun k _ => by
    rw [hx0 r k (Cert.ReferenceIdeal.Read.lidx_main_v13 i k) hi0 rfl, hx1 k cc (Cert.ReferenceIdeal.Read.ridx_main_v13 i k) rfl hi1]

/-! The block indices at grid point `t`, decided over the twenty points: a row-blocked window sits at block row `t`, the
    weight at block (0, 0). -/
theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = 0 ∧ win0_1.index t (1 : Fin 2) = 0 :=
  (by decide +kernel : ∀ t : Fin grid0.N, _)
theorem idx_out2 : ∀ t : Fin cfg0.N, win0_2.index t (0 : Fin 2) = t.val ∧ win0_2.index t (1 : Fin 2) = 0 :=
  (by decide +kernel : ∀ t : Fin grid0.N, _)
theorem idx_out3 : ∀ t : Fin cfg0.N, win0_3.index t (0 : Fin 2) = t.val ∧ win0_3.index t (1 : Fin 2) = 0 :=
  (by decide +kernel : ∀ t : Fin grid0.N, _)

/-- Window 0's block at point `t` holds rows `5000·t …` of its array: entry `(r, k)` of the block is the array's entry at
    any index with those coordinates. -/
theorem in_0 (c : Dev nD) (t : Fin cfg0.N) (r : Fin 5000) (k : Fin 128) (i : S100000x128.Idx)
    (h0 : (i 0).val = t.val * 5000 + r.val) (h1 : (i 1).val = k.val) :
    iblk0 V c 0 t (ix2 r k) = V c main_arg0 i := by
  have e0 : win0_0.index t (0 : Fin 2) = t.val := (idx_in0 t).1
  have e1 : win0_0.index t (1 : Fin 2) = 0 := (idx_in0 t).2
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = (i 0).val; omega
  | ⟨1, _⟩ => show win0_0.index t (1 : Fin 2) * 128 + 1 * k.val = (i 1).val; omega

/-- Window 1's block at every point is its whole array. -/
theorem in_1 (c : Dev nD) (t : Fin cfg0.N) (r : Fin 128) (k : Fin 128) (i : S128x128.Idx)
    (h0 : (i 0).val = r.val) (h1 : (i 1).val = k.val) :
    iblk0 V c 1 t (ix2 r k) = V c main_arg2 i := by
  have e0 : win0_1.index t (0 : Fin 2) = 0 := (idx_in1 t).1
  have e1 : win0_1.index t (1 : Fin 2) = 0 := (idx_in1 t).2
  show V c main_arg2 (((cfg0.win 1).blk t).view.emb (ix2 r k)) = _
  refine congrArg (V c main_arg2) ?_
  funext a; apply Fin.ext
  match a with
  | ⟨0, _⟩ => show win0_1.index t (0 : Fin 2) * 128 + 1 * r.val = (i 0).val; omega
  | ⟨1, _⟩ => show win0_1.index t (1 : Fin 2) * 128 + 1 * k.val = (i 1).val; omega

/-! ## The first result -/

/-- Where point `t`'s block of window 2 lies in its array: rows `5000·t …`, all columns. -/
theorem emb2_0 (t : Fin cfg0.N) (y : S5000x128.Idx) : ((((cfg0.win 2).blk t).view.emb y) 0).val = t.val * 5000 + (y 0).val := by
  have e0 : win0_2.index t (0 : Fin 2) = t.val := (idx_out2 t).1
  show win0_2.index t (0 : Fin 2) * 5000 + 1 * (y 0).val = _; omega
theorem emb2_1 (t : Fin cfg0.N) (y : S5000x128.Idx) : ((((cfg0.win 2).blk t).view.emb y) 1).val = (y 1).val := by
  have e1 : win0_2.index t (1 : Fin 2) = 0 := (idx_out2 t).2
  show win0_2.index t (1 : Fin 2) * 128 + 1 * (y 1).val = _; omega

/-- What point `t` writes back to the first result is block `t` of the whole product. -/
theorem flushed2_eq (c : Dev nD) (t : Fin cfg0.N) :
    (dat0 V c).flushed 2 t = ((cfg0.win 2).blk t).view.read (Elt Ideal)
      (Cert.ReferenceIdeal.Read.val_main_v13 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  exact point (V c main_arg0) (V c main_arg2) (iblk0 V c 0 t) (iblk0 V c 1 t) t.val
    (fun r k i h0 h1 => in_0 V c t r k i h0 h1) (fun k cc i h0 h1 => in_1 V c t k cc i h0 h1)
    j (((cfg0.win 2).blk t).view.emb j) (emb2_0 t j) (emb2_1 t j)

/-- An index of the array lies in point `t`'s block of window 2 iff each coordinate is in the block's range. -/
theorem mem_blk2 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33_0).slice (win0_2.rect t)).set ↔ _
  rw [View.set_slice_whole, Rect.mem_set_unit]
  exact Iff.rfl

/-- Row `p` of the array lies in the block of point `p / 5000`: the blocks of window 2 cover its array. -/
theorem cover2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < 20 := by omega
  refine ⟨⟨(i 0).val / 5000, ht⟩, flush0_2 _, ?_⟩
  rw [mem_blk2]
  have e0 : win0_2.index ⟨(i 0).val / 5000, ht⟩ (0 : Fin 2) = (i 0).val / 5000 := (idx_out2 ⟨(i 0).val / 5000, ht⟩).1
  have e1 : win0_2.index ⟨(i 0).val / 5000, ht⟩ (1 : Fin 2) = 0 := (idx_out2 ⟨(i 0).val / 5000, ht⟩).2
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- THE FIRST RESULT after the region: the whole product of the two operands as the region finds them. -/
theorem final2 (c : Dev nD) :
    (dat0 V c).arrAt 2 cfg0.N = Cert.ReferenceIdeal.Read.val_main_v13 (F := Ideal) (V c main_arg0) (V c main_arg2) :=
  (dat0 V c).arrAt_eq_of_cover 2 _ (fun t _ => flushed2_eq V c t) cover2

/-! ## The second result: the same product, stored through a change of float format -/

/-- Where point `t`'s block of window 3 lies in its array: rows `5000·t …`, all columns. -/
theorem emb3_0 (t : Fin cfg0.N) (y : S5000x128.Idx) : ((((cfg0.win 3).blk t).view.emb y) 0).val = t.val * 5000 + (y 0).val := by
  have e0 : win0_3.index t (0 : Fin 2) = t.val := (idx_out3 t).1
  show win0_3.index t (0 : Fin 2) * 5000 + 1 * (y 0).val = _; omega
theorem emb3_1 (t : Fin cfg0.N) (y : S5000x128.Idx) : ((((cfg0.win 3).blk t).view.emb y) 1).val = (y 1).val := by
  have e1 : win0_3.index t (1 : Fin 2) = 0 := (idx_out3 t).2
  show win0_3.index t (1 : Fin 2) * 128 + 1 * (y 1).val = _; omega

/-- What point `t` writes back to the second result is block `t` of the same whole product. -/
theorem flushed3_eq (c : Dev nD) (t : Fin cfg0.N) :
    (dat0 V c).flushed 3 t = ((cfg0.win 3).blk t).view.read (Elt Ideal)
      (Cert.ReferenceIdeal.Read.val_main_v13 (F := Ideal) (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  funext j
  show k0_pay1 (F := Ideal) (iblk0 V c 0 t) (iblk0 V c 1 t) j = _
  exact point (V c main_arg0) (V c main_arg2) (iblk0 V c 0 t) (iblk0 V c 1 t) t.val
    (fun r k i h0 h1 => in_0 V c t r k i h0 h1) (fun k cc i h0 h1 => in_1 V c t k cc i h0 h1)
    j (((cfg0.win 3).blk t).view.emb j) (emb3_0 t j) (emb3_1 t j)

/-- An index of the array lies in point `t`'s block of window 3 iff each coordinate is in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v33_1).slice (win0_3.rect t)).set ↔ _
  rw [View.set_slice_whole, Rect.mem_set_unit]
  exact Iff.rfl

/-- Row `p` of the array lies in the block of point `p / 5000`: the blocks of window 3 cover its array. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < 20 := by omega
  refine ⟨⟨(i 0).val / 5000, ht⟩, flush0_3 _, ?_⟩
  rw [mem_blk3]
  have e0 : win0_3.index ⟨(i 0).val / 5000, ht⟩ (0 : Fin 2) = (i 0).val / 5000 := (idx_out3 ⟨(i 0).val / 5000, ht⟩).1
  have e1 : win0_3.index ⟨(i 0).val / 5000, ht⟩ (1 : Fin 2) = 0 := (idx_out3 ⟨(i 0).val / 5000, ht⟩).2
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- THE SECOND RESULT after the region: the same whole product. -/
theorem final3 (c : Dev nD) :
    (dat0 V c).arrAt 3 cfg0.N = Cert.ReferenceIdeal.Read.val_main_v13 (F := Ideal) (V c main_arg0) (V c main_arg2) :=
  (dat0 V c).arrAt_eq_of_cover 3 _ (fun t _ => flushed3_eq V c t) cover3

end Cert.KernelIdeal.Region0

end
-- ==== Proof.ChainB.lean ====
/-
  After the first kernel, and after the second stretch of host operations.

  The first kernel leaves in both of its result arrays the whole product of the node features with the first weight
  (its blocks are restrictions of that product and cover the array); every other buffer is as the region found it. The
  second stretch gathers the product's rows at the edges' sources, scales each by the edge's normaliser and adds them
  up at the edges' destinations: the same gather, product and scatter-add the reference applies to its own product, so
  the aggregated array is the reference's stage — no operation of the stretch is opened.
-/
import proofs.«149143_j24481313587803_2_alg».proof.Proof.ChainA1
import proofs.«149143_j24481313587803_2_alg».proof.Proof.ChainA2
import proofs.«149143_j24481313587803_2_alg».proof.Proof.Region0

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The first kernel's first result: the whole product of the features with the first weight. -/
theorem W2_v33_0 (c : Dev nD) : W2 (F := Ideal) m ρ c (Proc.devRef .tc main_v33_0) = Cert.ReferenceIdeal.Read.val_main_v13 (F := Ideal) (m ((c : Thread nD τ).loc main_arg0)) (m ((c : Thread nD τ).loc main_arg2)) :=
  (W2_arr m ρ c 2).trans ((Cert.KernelIdeal.Region0.final2 (V1 m ρ) c).trans
    (congrArg₂ (Cert.ReferenceIdeal.Read.val_main_v13 (F := Ideal)) (W1_arg0 m ρ c) (W1_arg2 m ρ c)))

/-- The first kernel's second result: the same product (stored through a change of float format). -/
theorem W2_v33_1 (c : Dev nD) : W2 (F := Ideal) m ρ c (Proc.devRef .tc main_v33_1) = Cert.ReferenceIdeal.Read.val_main_v13 (F := Ideal) (m ((c : Thread nD τ).loc main_arg0)) (m ((c : Thread nD τ).loc main_arg2)) :=
  (W2_arr m ρ c 3).trans ((Cert.KernelIdeal.Region0.final3 (V1 m ρ) c).trans
    (congrArg₂ (Cert.ReferenceIdeal.Read.val_main_v13 (F := Ideal)) (W1_arg0 m ρ c) (W1_arg2 m ρ c)))

/-- The sources row, untouched by the first kernel. -/
theorem W2_v1 (c : Dev nD) : W2 (F := Ideal) m ρ c (Proc.devRef .tc main_v1) = Cert.ReferenceIdeal.Read.val_main_v1 (F := Ideal) (m ((c : Thread nD τ).loc main_arg1)) :=
  calc W2 (F := Ideal) m ρ c (Proc.devRef .tc main_v1)
    _ = W1 (F := Ideal) m ρ c (Proc.devRef .tc main_v1) := W2_of_ne m ρ c main_v1 (by decide)
    _ = Cert.ReferenceIdeal.Read.val_main_v1 (F := Ideal) (m ((c : Thread nD τ).loc main_arg1)) := W1_v1 m ρ c

/-- The destinations row, untouched by the first kernel. -/
theorem W2_v3 (c : Dev nD) : W2 (F := Ideal) m ρ c (Proc.devRef .tc main_v3) = Cert.ReferenceIdeal.Read.val_main_v3 (F := Ideal) (m ((c : Thread nD τ).loc main_arg1)) :=
  calc W2 (F := Ideal) m ρ c (Proc.devRef .tc main_v3)
    _ = W1 (F := Ideal) m ρ c (Proc.devRef .tc main_v3) := W2_of_ne m ρ c main_v3 (by decide)
    _ = Cert.ReferenceIdeal.Read.val_main_v3 (F := Ideal) (m ((c : Thread nD τ).loc main_arg1)) := W1_v3 m ρ c

/-- The per-edge normaliser, untouched by the first kernel. -/
theorem W2_v27 (c : Dev nD) : W2 (F := Ideal) m ρ c (Proc.devRef .tc main_v27) = Cert.ReferenceIdeal.Read.val_main_v28 (F := Ideal) (m ((c : Thread nD τ).loc main_arg1)) :=
  calc W2 (F := Ideal) m ρ c (Proc.devRef .tc main_v27)
    _ = W1 (F := Ideal) m ρ c (Proc.devRef .tc main_v27) := W2_of_ne m ρ c main_v27 (by decide)
    _ = Cert.ReferenceIdeal.Read.val_main_v28 (F := Ideal) (m ((c : Thread nD τ).loc main_arg1)) := W1_v27 m ρ c

/-- THE FIRST AGGREGATION: the reference's stage. -/
theorem W3_v47 (c : Dev nD) : W3 (F := Ideal) m ρ c (Proc.devRef .tc main_v47)
    = Cert.ReferenceIdeal.Read.val_main_v41 (F := Ideal) (m ((c : Thread nD τ).loc main_arg0)) (m ((c : Thread nD τ).loc main_arg1)) (m ((c : Thread nD τ).loc main_arg2)) := by
  show StableHlo.after hostOps1 (W2 m ρ c) (Proc.devRef .tc main_v47) = _
  dsimp only [hostOps1]
  after_results_simp
  rw [W2_v33_1 m ρ c, W2_v1 m ρ c, W2_v3 m ρ c, W2_v27 m ρ c]
  rfl

/-- The first product, untouched by the second stretch. -/
theorem W3_v33_0 (c : Dev nD) : W3 (F := Ideal) m ρ c (Proc.devRef .tc main_v33_0) = Cert.ReferenceIdeal.Read.val_main_v13 (F := Ideal) (m ((c : Thread nD τ).loc main_arg0)) (m ((c : Thread nD τ).loc main_arg2)) :=
  calc W3 (F := Ideal) m ρ c (Proc.devRef .tc main_v33_0)
    _ = W2 (F := Ideal) m ρ c (Proc.devRef .tc main_v33_0) := by
          show StableHlo.after hostOps1 (W2 m ρ c) (Proc.devRef .tc main_v33_0) = _
          dsimp only [hostOps1]
          after_results_simp
          try rfl
    _ = Cert.ReferenceIdeal.Read.val_main_v13 (F := Ideal) (m ((c : Thread nD τ).loc main_arg0)) (m ((c : Thread nD τ).loc main_arg2)) := W2_v33_0 m ρ c

/-- The column of inverse degrees at the second kernel's entry. -/
theorem W3_v28 (c : Dev nD) : W3 (F := Ideal) m ρ c (Proc.devRef .tc main_v28) = Cert.ReferenceIdeal.Read.val_main_v42 (F := Ideal) (m ((c : Thread nD τ).loc main_arg1)) :=
  calc W3 (F := Ideal) m ρ c (Proc.devRef .tc main_v28)
    _ = W2 (F := Ideal) m ρ c (Proc.devRef .tc main_v28) := by
          show StableHlo.after hostOps1 (W2 m ρ c) (Proc.devRef .tc main_v28) = _
          dsimp only [hostOps1]
          after_results_simp
          try rfl
    _ = W1 (F := Ideal) m ρ c (Proc.devRef .tc main_v28) := W2_of_ne m ρ c main_v28 (by decide)
    _ = Cert.ReferenceIdeal.Read.val_main_v42 (F := Ideal) (m ((c : Thread nD τ).loc main_arg1)) := W1_v28 m ρ c

/-- The first convolution's bias row at the second kernel's entry. -/
theorem W3_v29 (c : Dev nD) : W3 (F := Ideal) m ρ c (Proc.devRef .tc main_v29) = Cert.ReferenceIdeal.Read.val_main_v46 (F := Ideal) (m ((c : Thread nD τ).loc main_arg3)) :=
  calc W3 (F := Ideal) m ρ c (Proc.devRef .tc main_v29)
    _ = W2 (F := Ideal) m ρ c (Proc.devRef .tc main_v29) := by
          show StableHlo.after hostOps1 (W2 m ρ c) (Proc.devRef .tc main_v29) = _
          dsimp only [hostOps1]
          after_results_simp
          try rfl
    _ = W1 (F := Ideal) m ρ c (Proc.devRef .tc main_v29) := W2_of_ne m ρ c main_v29 (by decide)
    _ = Cert.ReferenceIdeal.Read.val_main_v46 (F := Ideal) (m ((c : Thread nD τ).loc main_arg3)) := W1_v29 m ρ c

/-- The second weight at the second kernel's entry. -/
theorem W3_arg4 (c : Dev nD) : W3 (F := Ideal) m ρ c (Proc.devRef .tc main_arg4) = (m ((c : Thread nD τ).loc main_arg4)) :=
  calc W3 (F := Ideal) m ρ c (Proc.devRef .tc main_arg4)
    _ = W2 (F := Ideal) m ρ c (Proc.devRef .tc main_arg4) := by
          show StableHlo.after hostOps1 (W2 m ρ c) (Proc.devRef .tc main_arg4) = _
          dsimp only [hostOps1]
          after_results_simp
          try rfl
    _ = W1 (F := Ideal) m ρ c (Proc.devRef .tc main_arg4) := W2_of_ne m ρ c main_arg4 (by decide)
    _ = (m ((c : Thread nD τ).loc main_arg4)) := W1_arg4 m ρ c

end Cert.KernelIdeal.Chain

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Region1.lean ====
/-
  The second kernel: the first graph-convolution layer's combine, a rectifier, and the second layer's product, twenty
  row blocks of 5000 rows.

  Grid point `t` loads rows `5000·t …` of the aggregated messages `A`, of the first product `H` and of the column of
  inverse degrees `D`, and the whole bias row `B` and weight `W`; it forms `max (A + H · D + B, 0)` — the column spread
  over the 128 features, the row over the 5000 nodes — and multiplies by `W` into a zero accumulator. The changes of float
  format around the product are the identity on extended reals. Row `p = 5000·t + r`, column `c` of the result is
  `∑ k, max (A (p, k) + H (p, k) · D (p, 0) + B (0, k), 0) · W (k, c)`: the reference's second product at `(p, c)`, whose left
  operand is the same rectified sum read stage by stage. So the blocks are restrictions of the reference's stage, and they
  cover the array.
-/
import proofs.«149143_j24481313587803_2_alg».proof.Proof.Gen.KernelIdeal.Frame
import proofs.«149143_j24481313587803_2_alg».proof.Proof.Gen.ReferenceIdeal.Read
import proofs.«149143_j24481313587803_2_alg».proof.Proof.LibPlainMatmul
import proofs.«149143_j24481313587803_2_alg».proof.Proof.LibColumnBroadcast
import Idealize.ShloMosaic.Lib.ValueLayout
set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's result at row `r`, column `cc` of the block, from the loaded blocks' entries. -/
theorem comb_apply (x0 x1 : Vec Ideal S5000x128 .f32) (x2 : Vec Ideal S5000x1 .f32) (x3 : Vec Ideal S1x128 .f32)
    (x4 : Vec Ideal S128x64 .f32) (r : Fin 5000) (cc : Fin 64) :
    k1_pay1 (F := Ideal) x0 x1 x2 x3 x4 (ix2 r cc)
      = ∑ k : Fin 128, max (x0 (ix2 r k) + x1 (ix2 r k) * x2 (ix2 r (0 : Fin 1)) + x3 (ix2 (0 : Fin 1) k))
          (Ideal.ofBits .f32 0x00000000#32) * x4 (ix2 k cc) := by
  unfold k1_pay1
  refine (Cert.LibPlainMatmul.matmul_zero_apply 5000 128 64 none _ _ r cc).trans ?_
  refine Finset.sum_congr rfl fun k _ => ?_
  rw [shapeCast_self x0 _, shapeCast_self x1 _, shapeCast_self x2 _, shapeCast_self x3 _]
  show max ((x0 (ix2 r k) + x1 (ix2 r k) * broadcastTo S5000x128 x2 _ (ix2 r k))
      + broadcastTo S5000x128 x3 _ (ix2 r k)) (Ideal.ofBits .f32 0x00000000#32) * x4 (ix2 k cc) = _
  rw [Cert.LibColumnBroadcast.broadcastTo_a1_ab_apply x2 _ r k, broadcastTo_1b_ab_apply x3 _ r k]

/-- A block's result is the reference's stage read where the block lies, when the loaded blocks hold the reference's
    earlier stages at the rows `5000·tv …` (the small operands whole). -/
theorem point (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal))
    (x0 x1 : Vec Ideal S5000x128 .f32) (x2 : Vec Ideal S5000x1 .f32) (x3 : Vec Ideal S1x128 .f32)
    (x4 : Vec Ideal S128x64 .f32) (tv : ℕ)
    (hx0 : ∀ (r : Fin 5000) (k : Fin 128) (i : S100000x128.Idx), (i 0).val = tv * 5000 + r.val → (i 1).val = k.val →
      x0 (ix2 r k) = Cert.ReferenceIdeal.Read.val_main_v41 (F := Ideal) a0 a1 a2 i)
    (hx1 : ∀ (r : Fin 5000) (k : Fin 128) (i : S100000x128.Idx), (i 0).val = tv * 5000 + r.val → (i 1).val = k.val →
      x1 (ix2 r k) = Cert.ReferenceIdeal.Read.val_main_v13 (F := Ideal) a0 a2 i)
    (hx2 : ∀ (r : Fin 5000) (i : S100000x1.Idx), (i 0).val = tv * 5000 + r.val → (i 1).val = 0 →
      x2 (ix2 r (0 : Fin 1)) = Cert.ReferenceIdeal.Read.val_main_v42 (F := Ideal) a1 i)
    (hx3 : ∀ (k : Fin 128) (i : S1x128.Idx), (i 0).val = 0 → (i 1).val = k.val →
      x3 (ix2 (0 : Fin 1) k) = Cert.ReferenceIdeal.Read.val_main_v46 (F := Ideal) a3 i)
    (hx4 : ∀ (k : Fin 128) (cc : Fin 64) (i : S128x64.Idx), (i 0).val = k.val → (i 1).val = cc.val → x4 (ix2 k cc) = a4 i)
    (j : S5000x64.Idx) (i : S100000x64.Idx) (hi0 : (i 0).val = tv * 5000 + (j 0).val) (hi1 : (i 1).val = (j 1).val) :
    k1_pay1 (F := Ideal) x0 x1 x2 x3 x4 j = Cert.ReferenceIdeal.Read.val_main_v50 (F := Ideal) a0 a1 a2 a3 a4 i := by
  obtain ⟨r, cc, rfl⟩ : ∃ (r : Fin 5000) (cc : Fin 64), j = ix2 r cc := ⟨j 0, j 1, eq_ix2 j⟩
  rw [Cert.ReferenceIdeal.Read.val_main_v50_apply, comb_apply]
  refine Finset.sum_congr rfl fun k _ => ?_
  rw [Cert.ReferenceIdeal.Read.val_main_v49_apply, Cert.ReferenceIdeal.Read.val_main_v48_apply, Cert.ReferenceIdeal.Read.val_main_v45_apply, Cert.ReferenceIdeal.Read.val_main_v44_apply, Cert.ReferenceIdeal.Read.val_main_v43_apply,
    Cert.ReferenceIdeal.Read.val_main_v47_apply, Cert.ReferenceIdeal.Read.val_main_call0_v0_apply, Cert.ReferenceIdeal.Read.val_main_call0_cst_apply]
  rw [hx0 r k (Cert.ReferenceIdeal.Read.lidx_main_v50 i k) hi0 rfl, hx1 r k (Cert.ReferenceIdeal.Read.lidx_main_v50 i k) hi0 rfl,
    hx2 r (Cert.ReferenceIdeal.Read.idx_main_v43 (Cert.ReferenceIdeal.Read.lidx_main_v50 i k)) hi0 rfl, hx3 k (Cert.ReferenceIdeal.Read.idx_main_v47 (Cert.ReferenceIdeal.Read.lidx_main_v50 i k)) rfl rfl,
    hx4 k cc (Cert.ReferenceIdeal.Read.ridx_main_v50 i k) rfl hi1]
  rfl

/-! The block indices at grid point `t`, decided over the twenty points. -/
theorem idx_in0 : ∀ t : Fin cfg1.N, win1_0.index t (0 : Fin 2) = t.val ∧ win1_0.index t (1 : Fin 2) = 0 :=
  (by decide +kernel : ∀ t : Fin grid1.N, _)
theorem idx_in1 : ∀ t : Fin cfg1.N, win1_1.index t (0 : Fin 2) = t.val ∧ win1_1.index t (1 : Fin 2) = 0 :=
  (by decide +kernel : ∀ t : Fin grid1.N, _)
theorem idx_in2 : ∀ t : Fin cfg1.N, win1_2.index t (0 : Fin 2) = t.val ∧ win1_2.index t (1 : Fin 2) = 0 :=
  (by decide +kernel : ∀ t : Fin grid1.N, _)
theorem idx_in3 : ∀ t : Fin cfg1.N, win1_3.index t (0 : Fin 2) = 0 ∧ win1_3.index t (1 : Fin 2) = 0 :=
  (by decide +kernel : ∀ t : Fin grid1.N, _)
theorem idx_in4 : ∀ t : Fin cfg1.N, win1_4.index t (0 : Fin 2) = 0 ∧ win1_4.index t (1 : Fin 2) = 0 :=
  (by decide +kernel : ∀ t : Fin grid1.N, _)
theorem idx_out5 : ∀ t : Fin cfg1.N, win1_5.index t (0 : Fin 2) = t.val ∧ win1_5.index t (1 : Fin 2) = 0 :=
  (by decide +kernel : ∀ t : Fin grid1.N, _)
theorem idx_out6 : ∀ t : Fin cfg1.N, win1_6.index t (0 : Fin 2) = t.val ∧ win1_6.index t (1 : Fin 2) = 0 :=
  (by decide +kernel : ∀ t : Fin grid1.N, _)

/-- Window 0's block at point `t` holds rows `5000·t …` of its array: entry `(r, k)` of the block is the array's entry at
    any index with those coordinates. -/
theorem in_0 (c : Dev nD) (t : Fin cfg1.N) (r : Fin 5000) (k : Fin 128) (i : S100000x128.Idx)
    (h0 : (i 0).val = t.val * 5000 + r.val) (h1 : (i 1).val = k.val) :
    iblk1 V c 0 t (ix2 r k) = V c main_v47 i := by
  have e0 : win1_0.index t (0 : Fin 2) = t.val := (idx_in0 t).1
  have e1 : win1_0.index t (1 : Fin 2) = 0 := (idx_in0 t).2
  show V c main_v47 (((cfg1.win 0).blk t).view.emb (ix2 r k)) = _
  refine congrArg (V c main_v47) ?_
  funext a; apply Fin.ext
  match a with
  | ⟨0, _⟩ => show win1_0.index t (0 : Fin 2) * 5000 + 1 * r.val = (i 0).val; omega
  | ⟨1, _⟩ => show win1_0.index t (1 : Fin 2) * 128 + 1 * k.val = (i 1).val; omega

/-- Window 1's block at point `t` holds rows `5000·t …` of its array: entry `(r, k)` of the block is the array's entry at
    any index with those coordinates. -/
theorem in_1 (c : Dev nD) (t : Fin cfg1.N) (r : Fin 5000) (k : Fin 128) (i : S100000x128.Idx)
    (h0 : (i 0).val = t.val * 5000 + r.val) (h1 : (i 1).val = k.val) :
    iblk1 V c 1 t (ix2 r k) = V c main_v33_0 i := by
  have e0 : win1_1.index t (0 : Fin 2) = t.val := (idx_in1 t).1
  have e1 : win1_1.index t (1 : Fin 2) = 0 := (idx_in1 t).2
  show V c main_v33_0 (((cfg1.win 1).blk t).view.emb (ix2 r k)) = _
  refine congrArg (V c main_v33_0) ?_
  funext a; apply Fin.ext
  match a with
  | ⟨0, _⟩ => show win1_1.index t (0 : Fin 2) * 5000 + 1 * r.val = (i 0).val; omega
  | ⟨1, _⟩ => show win1_1.index t (1 : Fin 2) * 128 + 1 * k.val = (i 1).val; omega

/-- Window 2's block at point `t` holds rows `5000·t …` of its array: entry `(r, k)` of the block is the array's entry at
    any index with those coordinates. -/
theorem in_2 (c : Dev nD) (t : Fin cfg1.N) (r : Fin 5000) (k : Fin 1) (i : S100000x1.Idx)
    (h0 : (i 0).val = t.val * 5000 + r.val) (h1 : (i 1).val = k.val) :
    iblk1 V c 2 t (ix2 r k) = V c main_v28 i := by
  have e0 : win1_2.index t (0 : Fin 2) = t.val := (idx_in2 t).1
  have e1 : win1_2.index t (1 : Fin 2) = 0 := (idx_in2 t).2
  show V c main_v28 (((cfg1.win 2).blk t).view.emb (ix2 r k)) = _
  refine congrArg (V c main_v28) ?_
  funext a; apply Fin.ext
  match a with
  | ⟨0, _⟩ => show win1_2.index t (0 : Fin 2) * 5000 + 1 * r.val = (i 0).val; omega
  | ⟨1, _⟩ => show win1_2.index t (1 : Fin 2) * 1 + 1 * k.val = (i 1).val; omega

/-- Window 3's block at every point is its whole array. -/
theorem in_3 (c : Dev nD) (t : Fin cfg1.N) (r : Fin 1) (k : Fin 128) (i : S1x128.Idx)
    (h0 : (i 0).val = r.val) (h1 : (i 1).val = k.val) :
    iblk1 V c 3 t (ix2 r k) = V c main_v29 i := by
  have e0 : win1_3.index t (0 : Fin 2) = 0 := (idx_in3 t).1
  have e1 : win1_3.index t (1 : Fin 2) = 0 := (idx_in3 t).2
  show V c main_v29 (((cfg1.win 3).blk t).view.emb (ix2 r k)) = _
  refine congrArg (V c main_v29) ?_
  funext a; apply Fin.ext
  match a with
  | ⟨0, _⟩ => show win1_3.index t (0 : Fin 2) * 1 + 1 * r.val = (i 0).val; omega
  | ⟨1, _⟩ => show win1_3.index t (1 : Fin 2) * 128 + 1 * k.val = (i 1).val; omega

/-- Window 4's block at every point is its whole array. -/
theorem in_4 (c : Dev nD) (t : Fin cfg1.N) (r : Fin 128) (k : Fin 64) (i : S128x64.Idx)
    (h0 : (i 0).val = r.val) (h1 : (i 1).val = k.val) :
    iblk1 V c 4 t (ix2 r k) = V c main_arg4 i := by
  have e0 : win1_4.index t (0 : Fin 2) = 0 := (idx_in4 t).1
  have e1 : win1_4.index t (1 : Fin 2) = 0 := (idx_in4 t).2
  show V c main_arg4 (((cfg1.win 4).blk t).view.emb (ix2 r k)) = _
  refine congrArg (V c main_arg4) ?_
  funext a; apply Fin.ext
  match a with
  | ⟨0, _⟩ => show win1_4.index t (0 : Fin 2) * 128 + 1 * r.val = (i 0).val; omega
  | ⟨1, _⟩ => show win1_4.index t (1 : Fin 2) * 64 + 1 * k.val = (i 1).val; omega

/-! ## The first result -/

/-- Where point `t`'s block of window 5 lies in its array: rows `5000·t …`, all columns. -/
theorem emb5_0 (t : Fin cfg1.N) (y : S5000x64.Idx) : ((((cfg1.win 5).blk t).view.emb y) 0).val = t.val * 5000 + (y 0).val := by
  have e0 : win1_5.index t (0 : Fin 2) = t.val := (idx_out5 t).1
  show win1_5.index t (0 : Fin 2) * 5000 + 1 * (y 0).val = _; omega
theorem emb5_1 (t : Fin cfg1.N) (y : S5000x64.Idx) : ((((cfg1.win 5).blk t).view.emb y) 1).val = (y 1).val := by
  have e1 : win1_5.index t (1 : Fin 2) = 0 := (idx_out5 t).2
  show win1_5.index t (1 : Fin 2) * 64 + 1 * (y 1).val = _; omega

/-- What point `t` writes back to window 5 is block `t` of any array `G` whose entries, at the rows the block covers, are
    the body's results. -/
theorem flushed5_of (c : Dev nD) (t : Fin cfg1.N) (G : Buf (Elt Ideal) ((c : Thread nD τ).loc main_v48_0))
    (hpt : ∀ (j : S5000x64.Idx) (i : S100000x64.Idx), (i 0).val = t.val * 5000 + (j 0).val → (i 1).val = (j 1).val →
      k1_pay1 (F := Ideal) (iblk1 V c 0 t) (iblk1 V c 1 t) (iblk1 V c 2 t) (iblk1 V c 3 t) (iblk1 V c 4 t) j = G i) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x64) hz]
  funext j
  exact hpt ((win1_5).xinj (grid1.coords t) j) (((cfg1.win 5).blk t).view.emb j) (emb5_0 t j) (emb5_1 t j)

/-- An index of the array lies in point `t`'s block of window 5 iff each coordinate is in the block's range. -/
theorem mem_blk5 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v48_0).slice (win1_5.rect t)).set ↔ _
  rw [View.set_slice_whole, Rect.mem_set_unit]
  exact Iff.rfl

/-- Row `p` of the array lies in the block of point `p / 5000`: the blocks of window 5 cover its array. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < 20 := by omega
  refine ⟨⟨(i 0).val / 5000, ht⟩, flush1_5 _, ?_⟩
  rw [mem_blk5]
  have e0 : win1_5.index ⟨(i 0).val / 5000, ht⟩ (0 : Fin 2) = (i 0).val / 5000 := (idx_out5 ⟨(i 0).val / 5000, ht⟩).1
  have e1 : win1_5.index ⟨(i 0).val / 5000, ht⟩ (1 : Fin 2) = 0 := (idx_out5 ⟨(i 0).val / 5000, ht⟩).2
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    omega

/-- The body's result at an entry of point `t`'s block is the reference's stage at that entry's place in the array, when
    the region's input arrays hold the reference's earlier stages. -/
theorem entry5 (c : Dev nD) (t : Fin cfg1.N) (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal))
    (hA : V c main_v47 = Cert.ReferenceIdeal.Read.val_main_v41 (F := Ideal) a0 a1 a2) (hH : V c main_v33_0 = Cert.ReferenceIdeal.Read.val_main_v13 (F := Ideal) a0 a2)
    (hD : V c main_v28 = Cert.ReferenceIdeal.Read.val_main_v42 (F := Ideal) a1) (hB : V c main_v29 = Cert.ReferenceIdeal.Read.val_main_v46 (F := Ideal) a3)
    (hW : V c main_arg4 = a4)
    (j : S5000x64.Idx) (i : S100000x64.Idx) (h0 : (i 0).val = t.val * 5000 + (j 0).val) (h1 : (i 1).val = (j 1).val) :
    k1_pay1 (F := Ideal) (iblk1 V c 0 t) (iblk1 V c 1 t) (iblk1 V c 2 t) (iblk1 V c 3 t) (iblk1 V c 4 t) j = Cert.ReferenceIdeal.Read.val_main_v50 (F := Ideal) a0 a1 a2 a3 a4 i :=
  (point a0 a1 a2 a3 a4 (iblk1 V c 0 t) (iblk1 V c 1 t) (iblk1 V c 2 t) (iblk1 V c 3 t) (iblk1 V c 4 t) t.val
      (fun r k i h0 h1 => (in_0 V c t r k i h0 h1).trans (congrFun hA i))
      (fun r k i h0 h1 => (in_1 V c t r k i h0 h1).trans (congrFun hH i))
      (fun r i h0 h1 => (in_2 V c t r (0 : Fin 1) i h0 h1).trans (congrFun hD i))
      (fun k i h0 h1 => (in_3 V c t (0 : Fin 1) k i h0 h1).trans (congrFun hB i))
      (fun k cc i h0 h1 => (in_4 V c t k cc i h0 h1).trans (congrFun hW i))
      j i h0 h1)

/-- WINDOW 5's ARRAY after the region: the reference's stage, when the region's input arrays hold the reference's
    earlier stages. -/
theorem final5 (c : Dev nD) (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal))
    (hA : V c main_v47 = Cert.ReferenceIdeal.Read.val_main_v41 (F := Ideal) a0 a1 a2) (hH : V c main_v33_0 = Cert.ReferenceIdeal.Read.val_main_v13 (F := Ideal) a0 a2)
    (hD : V c main_v28 = Cert.ReferenceIdeal.Read.val_main_v42 (F := Ideal) a1) (hB : V c main_v29 = Cert.ReferenceIdeal.Read.val_main_v46 (F := Ideal) a3)
    (hW : V c main_arg4 = a4) :
    (dat1 V c).arrAt 5 cfg1.N = Cert.ReferenceIdeal.Read.val_main_v50 (F := Ideal) a0 a1 a2 a3 a4 :=
  (dat1 V c).arrAt_eq_of_cover 5 _
    (fun t _ => flushed5_of V c t _ (fun j i h0 h1 => entry5 V c t a0 a1 a2 a3 a4 hA hH hD hB hW j i h0 h1)) cover5

/-! ## The second result: the same, stored through a change of float format -/

/-- Where point `t`'s block of window 6 lies in its array: rows `5000·t …`, all columns. -/
theorem emb6_0 (t : Fin cfg1.N) (y : S5000x64.Idx) : ((((cfg1.win 6).blk t).view.emb y) 0).val = t.val * 5000 + (y 0).val := by
  have e0 : win1_6.index t (0 : Fin 2) = t.val := (idx_out6 t).1
  show win1_6.index t (0 : Fin 2) * 5000 + 1 * (y 0).val = _; omega
theorem emb6_1 (t : Fin cfg1.N) (y : S5000x64.Idx) : ((((cfg1.win 6).blk t).view.emb y) 1).val = (y 1).val := by
  have e1 : win1_6.index t (1 : Fin 2) = 0 := (idx_out6 t).2
  show win1_6.index t (1 : Fin 2) * 64 + 1 * (y 1).val = _; omega

/-- What point `t` writes back to window 6 is block `t` of any array `G` whose entries, at the rows the block covers, are
    the body's results. -/
theorem flushed6_of (c : Dev nD) (t : Fin cfg1.N) (G : Buf (Elt Ideal) ((c : Thread nD τ).loc main_v48_1))
    (hpt : ∀ (j : S5000x64.Idx) (i : S100000x64.Idx), (i 0).val = t.val * 5000 + (j 0).val → (i 1).val = (j 1).val →
      k1_pay2 (F := Ideal) (iblk1 V c 0 t) (iblk1 V c 1 t) (iblk1 V c 2 t) (iblk1 V c 3 t) (iblk1 V c 4 t) j = G i) :
    (dat1 V c).flushed 6 t = ((cfg1.win 6).blk t).view.read (Elt Ideal) G := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz, View.ld_unit_zero (S := S128x64) hz]
  funext j
  exact hpt ((win1_6).xinj (grid1.coords t) j) (((cfg1.win 6).blk t).view.emb j) (emb6_0 t j) (emb6_1 t j)

/-- An index of the array lies in point `t`'s block of window 6 iff each coordinate is in the block's range. -/
theorem mem_blk6 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v48_1).slice (win1_6.rect t)).set ↔ _
  rw [View.set_slice_whole, Rect.mem_set_unit]
  exact Iff.rfl

/-- Row `p` of the array lies in the block of point `p / 5000`: the blocks of window 6 cover its array. -/
theorem cover6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have ht : (i 0).val / 5000 < 20 := by omega
  refine ⟨⟨(i 0).val / 5000, ht⟩, flush1_6 _, ?_⟩
  rw [mem_blk6]
  have e0 : win1_6.index ⟨(i 0).val / 5000, ht⟩ (0 : Fin 2) = (i 0).val / 5000 := (idx_out6 ⟨(i 0).val / 5000, ht⟩).1
  have e1 : win1_6.index ⟨(i 0).val / 5000, ht⟩ (1 : Fin 2) = 0 := (idx_out6 ⟨(i 0).val / 5000, ht⟩).2
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    omega

/-- The body's result at an entry of point `t`'s block is the reference's stage at that entry's place in the array, when
    the region's input arrays hold the reference's earlier stages. -/
theorem entry6 (c : Dev nD) (t : Fin cfg1.N) (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal))
    (hA : V c main_v47 = Cert.ReferenceIdeal.Read.val_main_v41 (F := Ideal) a0 a1 a2) (hH : V c main_v33_0 = Cert.ReferenceIdeal.Read.val_main_v13 (F := Ideal) a0 a2)
    (hD : V c main_v28 = Cert.ReferenceIdeal.Read.val_main_v42 (F := Ideal) a1) (hB : V c main_v29 = Cert.ReferenceIdeal.Read.val_main_v46 (F := Ideal) a3)
    (hW : V c main_arg4 = a4)
    (j : S5000x64.Idx) (i : S100000x64.Idx) (h0 : (i 0).val = t.val * 5000 + (j 0).val) (h1 : (i 1).val = (j 1).val) :
    k1_pay2 (F := Ideal) (iblk1 V c 0 t) (iblk1 V c 1 t) (iblk1 V c 2 t) (iblk1 V c 3 t) (iblk1 V c 4 t) j = Cert.ReferenceIdeal.Read.val_main_v50 (F := Ideal) a0 a1 a2 a3 a4 i :=
  (show k1_pay2 (F := Ideal) (iblk1 V c 0 t) (iblk1 V c 1 t) (iblk1 V c 2 t) (iblk1 V c 3 t) (iblk1 V c 4 t) j = k1_pay1 (F := Ideal) (iblk1 V c 0 t) (iblk1 V c 1 t) (iblk1 V c 2 t) (iblk1 V c 3 t) (iblk1 V c 4 t) j from rfl).trans (point a0 a1 a2 a3 a4 (iblk1 V c 0 t) (iblk1 V c 1 t) (iblk1 V c 2 t) (iblk1 V c 3 t) (iblk1 V c 4 t) t.val
      (fun r k i h0 h1 => (in_0 V c t r k i h0 h1).trans (congrFun hA i))
      (fun r k i h0 h1 => (in_1 V c t r k i h0 h1).trans (congrFun hH i))
      (fun r i h0 h1 => (in_2 V c t r (0 : Fin 1) i h0 h1).trans (congrFun hD i))
      (fun k i h0 h1 => (in_3 V c t (0 : Fin 1) k i h0 h1).trans (congrFun hB i))
      (fun k cc i h0 h1 => (in_4 V c t k cc i h0 h1).trans (congrFun hW i))
      j i h0 h1)

/-- WINDOW 6's ARRAY after the region: the reference's stage, when the region's input arrays hold the reference's
    earlier stages. -/
theorem final6 (c : Dev nD) (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal))
    (hA : V c main_v47 = Cert.ReferenceIdeal.Read.val_main_v41 (F := Ideal) a0 a1 a2) (hH : V c main_v33_0 = Cert.ReferenceIdeal.Read.val_main_v13 (F := Ideal) a0 a2)
    (hD : V c main_v28 = Cert.ReferenceIdeal.Read.val_main_v42 (F := Ideal) a1) (hB : V c main_v29 = Cert.ReferenceIdeal.Read.val_main_v46 (F := Ideal) a3)
    (hW : V c main_arg4 = a4) :
    (dat1 V c).arrAt 6 cfg1.N = Cert.ReferenceIdeal.Read.val_main_v50 (F := Ideal) a0 a1 a2 a3 a4 :=
  (dat1 V c).arrAt_eq_of_cover 6 _
    (fun t _ => flushed6_of V c t _ (fun j i h0 h1 => entry6 V c t a0 a1 a2 a3 a4 hA hH hD hB hW j i h0 h1)) cover6

end Cert.KernelIdeal.Region1

end
-- ==== Proof.ChainC.lean ====
/-
  After the second kernel, and after the third stretch of host operations.

  The second kernel finds in its input arrays the reference's first aggregation, first product, inverse-degree column,
  bias row and second weight, so both of its result arrays hold the reference's second product (of the rectified first
  layer with the second weight). The third stretch aggregates that product over the edges exactly as the reference
  does: the second aggregation is the reference's stage.
-/
import proofs.«149143_j24481313587803_2_alg».proof.Proof.ChainB
import proofs.«149143_j24481313587803_2_alg».proof.Proof.Region1

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The second kernel's first result: the reference's second product. -/
theorem W4_v48_0 (c : Dev nD) : W4 (F := Ideal) m ρ c (Proc.devRef .tc main_v48_0) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 5).trans (Cert.KernelIdeal.Region1.final5 (V3 m ρ) c (m ((c : Thread nD τ).loc main_arg0)) (m ((c : Thread nD τ).loc main_arg1)) (m ((c : Thread nD τ).loc main_arg2)) (m ((c : Thread nD τ).loc main_arg3)) (m ((c : Thread nD τ).loc main_arg4)) (W3_v47 m ρ c) (W3_v33_0 m ρ c) (W3_v28 m ρ c) (W3_v29 m ρ c) (W3_arg4 m ρ c))

/-- The second kernel's second result: the same (stored through a change of float format). -/
theorem W4_v48_1 (c : Dev nD) : W4 (F := Ideal) m ρ c (Proc.devRef .tc main_v48_1) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 6).trans (Cert.KernelIdeal.Region1.final6 (V3 m ρ) c (m ((c : Thread nD τ).loc main_arg0)) (m ((c : Thread nD τ).loc main_arg1)) (m ((c : Thread nD τ).loc main_arg2)) (m ((c : Thread nD τ).loc main_arg3)) (m ((c : Thread nD τ).loc main_arg4)) (W3_v47 m ρ c) (W3_v33_0 m ρ c) (W3_v28 m ρ c) (W3_v29 m ρ c) (W3_arg4 m ρ c))

/-- The sources row at the third stretch. -/
theorem W4_v1 (c : Dev nD) : W4 (F := Ideal) m ρ c (Proc.devRef .tc main_v1) = Cert.ReferenceIdeal.Read.val_main_v1 (F := Ideal) (m ((c : Thread nD τ).loc main_arg1)) :=
  calc W4 (F := Ideal) m ρ c (Proc.devRef .tc main_v1)
    _ = W3 (F := Ideal) m ρ c (Proc.devRef .tc main_v1) := W4_of_ne m ρ c main_v1 (by decide)
    _ = W2 (F := Ideal) m ρ c (Proc.devRef .tc main_v1) := by
          show StableHlo.after hostOps1 (W2 m ρ c) (Proc.devRef .tc main_v1) = _
          dsimp only [hostOps1]
          after_results_simp
          try rfl
    _ = Cert.ReferenceIdeal.Read.val_main_v1 (F := Ideal) (m ((c : Thread nD τ).loc main_arg1)) := W2_v1 m ρ c

/-- The destinations row at the third stretch. -/
theorem W4_v3 (c : Dev nD) : W4 (F := Ideal) m ρ c (Proc.devRef .tc main_v3) = Cert.ReferenceIdeal.Read.val_main_v3 (F := Ideal) (m ((c : Thread nD τ).loc main_arg1)) :=
  calc W4 (F := Ideal) m ρ c (Proc.devRef .tc main_v3)
    _ = W3 (F := Ideal) m ρ c (Proc.devRef .tc main_v3) := W4_of_ne m ρ c main_v3 (by decide)
    _ = W2 (F := Ideal) m ρ c (Proc.devRef .tc main_v3) := by
          show StableHlo.after hostOps1 (W2 m ρ c) (Proc.devRef .tc main_v3) = _
          dsimp only [hostOps1]
          after_results_simp
          try rfl
    _ = Cert.ReferenceIdeal.Read.val_main_v3 (F := Ideal) (m ((c : Thread nD τ).loc main_arg1)) := W2_v3 m ρ c

/-- The per-edge normaliser at the third stretch, as the reference's second layer computes it. -/
theorem W4_v27b (c : Dev nD) : W4 (F := Ideal) m ρ c (Proc.devRef .tc main_v27) = Cert.ReferenceIdeal.Read.val_main_v65 (F := Ideal) (m ((c : Thread nD τ).loc main_arg1)) :=
  calc W4 (F := Ideal) m ρ c (Proc.devRef .tc main_v27)
    _ = W3 (F := Ideal) m ρ c (Proc.devRef .tc main_v27) := W4_of_ne m ρ c main_v27 (by decide)
    _ = W2 (F := Ideal) m ρ c (Proc.devRef .tc main_v27) := by
          show StableHlo.after hostOps1 (W2 m ρ c) (Proc.devRef .tc main_v27) = _
          dsimp only [hostOps1]
          after_results_simp
          try rfl
    _ = W1 (F := Ideal) m ρ c (Proc.devRef .tc main_v27) := W2_of_ne m ρ c main_v27 (by decide)
    _ = Cert.ReferenceIdeal.Read.val_main_v65 (F := Ideal) (m ((c : Thread nD τ).loc main_arg1)) := W1_v27b m ρ c

/-- THE SECOND AGGREGATION: the reference's stage. -/
theorem W5_v62 (c : Dev nD) : W5 (F := Ideal) m ρ c (Proc.devRef .tc main_v62) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v62) = _
  dsimp only [hostOps2]
  after_results_simp
  rw [W4_v48_1 m ρ c, W4_v1 m ρ c, W4_v3 m ρ c, W4_v27b m ρ c]
  rfl

/-- The second product, untouched by the third stretch. -/
theorem W5_v48_0 (c : Dev nD) : W5 (F := Ideal) m ρ c (Proc.devRef .tc main_v48_0) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W5 (F := Ideal) m ρ c (Proc.devRef .tc main_v48_0)
    _ = W4 (F := Ideal) m ρ c (Proc.devRef .tc main_v48_0) := by
          show StableHlo.after hostOps2 (W4 m ρ c) (Proc.devRef .tc main_v48_0) = _
          dsimp only [hostOps2]
          after_results_simp
          try rfl
    _ = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := W4_v48_0 m ρ c

/-- The column of inverse degrees at the third kernel's entry. -/
theorem W5_v28b (c : Dev nD) : W5 (F := Ideal) m ρ c (Proc.devRef .tc main_v28) = Cert.ReferenceIdeal.Read.val_main_v79 (F := Ideal) (m ((c : Thread nD τ).loc main_arg1)) :=
  calc W5 (F := Ideal) m ρ c (Proc.devRef .tc main_v28)
    _ = W4 (F := Ideal) m ρ c (Proc.devRef .tc main_v28) := by
          show StableHlo.after hostOps2 (W4 m ρ c) (Proc.devRef .tc main_v28) = _
          dsimp only [hostOps2]
          after_results_simp
          try rfl
    _ = W3 (F := Ideal) m ρ c (Proc.devRef .tc main_v28) := (W4_arr m ρ c 2).trans (((dat1 (V3 m ρ) c).arrAt_in 2 rfl _).trans (A_eq1 (V3 m ρ) c 2))
    _ = W2 (F := Ideal) m ρ c (Proc.devRef .tc main_v28) := by
          show StableHlo.after hostOps1 (W2 m ρ c) (Proc.devRef .tc main_v28) = _
          dsimp only [hostOps1]
          after_results_simp
          try rfl
    _ = W1 (F := Ideal) m ρ c (Proc.devRef .tc main_v28) := W2_of_ne m ρ c main_v28 (by decide)
    _ = Cert.ReferenceIdeal.Read.val_main_v79 (F := Ideal) (m ((c : Thread nD τ).loc main_arg1)) := W1_v28b m ρ c

/-- The second convolution's bias row at the third kernel's entry. -/
theorem W5_v30 (c : Dev nD) : W5 (F := Ideal) m ρ c (Proc.devRef .tc main_v30) = Cert.ReferenceIdeal.Read.val_main_v83 (F := Ideal) (m ((c : Thread nD τ).loc main_arg5)) :=
  calc W5 (F := Ideal) m ρ c (Proc.devRef .tc main_v30)
    _ = W4 (F := Ideal) m ρ c (Proc.devRef .tc main_v30) := by
          show StableHlo.after hostOps2 (W4 m ρ c) (Proc.devRef .tc main_v30) = _
          dsimp only [hostOps2]
          after_results_simp
          try rfl
    _ = W3 (F := Ideal) m ρ c (Proc.devRef .tc main_v30) := W4_of_ne m ρ c main_v30 (by decide)
    _ = W2 (F := Ideal) m ρ c (Proc.devRef .tc main_v30) := by
          show StableHlo.after hostOps1 (W2 m ρ c) (Proc.devRef .tc main_v30) = _
          dsimp only [hostOps1]
          after_results_simp
          try rfl
    _ = W1 (F := Ideal) m ρ c (Proc.devRef .tc main_v30) := W2_of_ne m ρ c main_v30 (by decide)
    _ = Cert.ReferenceIdeal.Read.val_main_v83 (F := Ideal) (m ((c : Thread nD τ).loc main_arg5)) := W1_v30 m ρ c

/-- The perceptron's first bias row at the third kernel's entry. -/
theorem W5_v31 (c : Dev nD) : W5 (F := Ideal) m ρ c (Proc.devRef .tc main_v31) = Cert.ReferenceIdeal.Read.val_main_v87 (F := Ideal) (m ((c : Thread nD τ).loc main_arg7)) :=
  calc W5 (F := Ideal) m ρ c (Proc.devRef .tc main_v31)
    _ = W4 (F := Ideal) m ρ c (Proc.devRef .tc main_v31) := by
          show StableHlo.after hostOps2 (W4 m ρ c) (Proc.devRef .tc main_v31) = _
          dsimp only [hostOps2]
          after_results_simp
          try rfl
    _ = W3 (F := Ideal) m ρ c (Proc.devRef .tc main_v31) := W4_of_ne m ρ c main_v31 (by decide)
    _ = W2 (F := Ideal) m ρ c (Proc.devRef .tc main_v31) := by
          show StableHlo.after hostOps1 (W2 m ρ c) (Proc.devRef .tc main_v31) = _
          dsimp only [hostOps1]
          after_results_simp
          try rfl
    _ = W1 (F := Ideal) m ρ c (Proc.devRef .tc main_v31) := W2_of_ne m ρ c main_v31 (by decide)
    _ = Cert.ReferenceIdeal.Read.val_main_v87 (F := Ideal) (m ((c : Thread nD τ).loc main_arg7)) := W1_v31 m ρ c

/-- The perceptron's second bias row at the third kernel's entry. -/
theorem W5_v32 (c : Dev nD) : W5 (F := Ideal) m ρ c (Proc.devRef .tc main_v32) = Cert.ReferenceIdeal.Read.val_main_v92 (F := Ideal) (m ((c : Thread nD τ).loc main_arg9)) :=
  calc W5 (F := Ideal) m ρ c (Proc.devRef .tc main_v32)
    _ = W4 (F := Ideal) m ρ c (Proc.devRef .tc main_v32) := by
          show StableHlo.after hostOps2 (W4 m ρ c) (Proc.devRef .tc main_v32) = _
          dsimp only [hostOps2]
          after_results_simp
          try rfl
    _ = W3 (F := Ideal) m ρ c (Proc.devRef .tc main_v32) := W4_of_ne m ρ c main_v32 (by decide)
    _ = W2 (F := Ideal) m ρ c (Proc.devRef .tc main_v32) := by
          show StableHlo.after hostOps1 (W2 m ρ c) (Proc.devRef .tc main_v32) = _
          dsimp only [hostOps1]
          after_results_simp
          try rfl
    _ = W1 (F := Ideal) m ρ c (Proc.devRef .tc main_v32) := W2_of_ne m ρ c main_v32 (by decide)
    _ = Cert.ReferenceIdeal.Read.val_main_v92 (F := Ideal) (m ((c : Thread nD τ).loc main_arg9)) := W1_v32 m ρ c

/-- The node features at the third kernel's entry. -/
theorem W5_arg0 (c : Dev nD) : W5 (F := Ideal) m ρ c (Proc.devRef .tc main_arg0) = (m ((c : Thread nD τ).loc main_arg0)) :=
  calc W5 (F := Ideal) m ρ c (Proc.devRef .tc main_arg0)
    _ = W4 (F := Ideal) m ρ c (Proc.devRef .tc main_arg0) := by
          show StableHlo.after hostOps2 (W4 m ρ c) (Proc.devRef .tc main_arg0) = _
          dsimp only [hostOps2]
          after_results_simp
          try rfl
    _ = W3 (F := Ideal) m ρ c (Proc.devRef .tc main_arg0) := W4_of_ne m ρ c main_arg0 (by decide)
    _ = W2 (F := Ideal) m ρ c (Proc.devRef .tc main_arg0) := by
          show StableHlo.after hostOps1 (W2 m ρ c) (Proc.devRef .tc main_arg0) = _
          dsimp only [hostOps1]
          after_results_simp
          try rfl
    _ = W1 (F := Ideal) m ρ c (Proc.devRef .tc main_arg0) := (W2_arr m ρ c 0).trans (((dat0 (V1 m ρ) c).arrAt_in 0 rfl _).trans (A_eq0 (V1 m ρ) c 0))
    _ = (m ((c : Thread nD τ).loc main_arg0)) := W1_arg0 m ρ c

/-- The perceptron's first weight at the third kernel's entry. -/
theorem W5_arg6 (c : Dev nD) : W5 (F := Ideal) m ρ c (Proc.devRef .tc main_arg6) = (m ((c : Thread nD τ).loc main_arg6)) :=
  calc W5 (F := Ideal) m ρ c (Proc.devRef .tc main_arg6)
    _ = W4 (F := Ideal) m ρ c (Proc.devRef .tc main_arg6) := by
          show StableHlo.after hostOps2 (W4 m ρ c) (Proc.devRef .tc main_arg6) = _
          dsimp only [hostOps2]
          after_results_simp
          try rfl
    _ = W3 (F := Ideal) m ρ c (Proc.devRef .tc main_arg6) := W4_of_ne m ρ c main_arg6 (by decide)
    _ = W2 (F := Ideal) m ρ c (Proc.devRef .tc main_arg6) := by
          show StableHlo.after hostOps1 (W2 m ρ c) (Proc.devRef .tc main_arg6) = _
          dsimp only [hostOps1]
          after_results_simp
          try rfl
    _ = W1 (F := Ideal) m ρ c (Proc.devRef .tc main_arg6) := W2_of_ne m ρ c main_arg6 (by decide)
    _ = (m ((c : Thread nD τ).loc main_arg6)) := W1_arg6 m ρ c

/-- The perceptron's second weight at the third kernel's entry. -/
theorem W5_arg8 (c : Dev nD) : W5 (F := Ideal) m ρ c (Proc.devRef .tc main_arg8) = (m ((c : Thread nD τ).loc main_arg8)) :=
  calc W5 (F := Ideal) m ρ c (Proc.devRef .tc main_arg8)
    _ = W4 (F := Ideal) m ρ c (Proc.devRef .tc main_arg8) := by
          show StableHlo.after hostOps2 (W4 m ρ c) (Proc.devRef .tc main_arg8) = _
          dsimp only [hostOps2]
          after_results_simp
          try rfl
    _ = W3 (F := Ideal) m ρ c (Proc.devRef .tc main_arg8) := W4_of_ne m ρ c main_arg8 (by decide)
    _ = W2 (F := Ideal) m ρ c (Proc.devRef .tc main_arg8) := by
          show StableHlo.after hostOps1 (W2 m ρ c) (Proc.devRef .tc main_arg8) = _
          dsimp only [hostOps1]
          after_results_simp
          try rfl
    _ = W1 (F := Ideal) m ρ c (Proc.devRef .tc main_arg8) := W2_of_ne m ρ c main_arg8 (by decide)
    _ = (m ((c : Thread nD τ).loc main_arg8)) := W1_arg8 m ρ c

end Cert.KernelIdeal.Chain

end
-- ==== Proof.Region2.lean ====
/-
  The third kernel: the second graph-convolution layer's combine, the whole two-layer perceptron branch, and the
  half-and-half sum of the two, twenty row blocks of 5000 rows.

  Grid point `t` loads rows `5000·t …` of the second aggregation `A`, of the second product `H`, of the inverse-degree
  column `D` and of the node features `X`, and the whole bias rows and weights. It forms
  `½ · (A + H · D + B) + ½ · (max (X · W₁ + B₁, 0) · W₂ + B₂)`, both products into zero accumulators, the changes of float
  format the identity on extended reals. Entry by entry this is the reference's last stage: the reference adds
  `½ · z_gnn` and `½ · z_mlp`, each read stage by stage down to the same sums. So the blocks are restrictions of the
  reference's result, and they cover the array.
-/
import proofs.«149143_j24481313587803_2_alg».proof.Proof.Gen.KernelIdeal.Frame
import proofs.«149143_j24481313587803_2_alg».proof.Proof.Gen.ReferenceIdeal.Read
import proofs.«149143_j24481313587803_2_alg».proof.Proof.LibPlainMatmul
import proofs.«149143_j24481313587803_2_alg».proof.Proof.LibColumnBroadcast
import Idealize.ShloMosaic.Lib.ValueLayout
set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The convolution half at row `r`, column `cc` of the block. -/
theorem gnn_apply (v0 v2 : Vec Ideal S5000x64 .f32) (v4 : Vec Ideal S5000x1 .f32) (v9 : Vec Ideal S1x64 .f32)
    (r : Fin 5000) (cc : Fin 64) :
    k2_pay2 (F := Ideal) v0 v2 v4 v9 (ix2 r cc)
      = Ideal.ofBits .f32 0x3F000000#32 * (v0 (ix2 r cc) + v2 (ix2 r cc) * v4 (ix2 r (0 : Fin 1)) + v9 (ix2 (0 : Fin 1) cc)) := by
  unfold k2_pay2
  rw [shapeCast_self v0 _, shapeCast_self v2 _, shapeCast_self v4 _, shapeCast_self v9 _]
  refine congrArg₂ (fun a b => Ideal.ofBits .f32 0x3F000000#32 * (v0 (ix2 r cc) + v2 (ix2 r cc) * a + b)) ?_ ?_
  · exact Cert.LibColumnBroadcast.broadcastTo_a1_ab_apply v4 _ r cc
  · exact broadcastTo_1b_ab_apply v9 _ r cc

/-- The perceptron half at row `r`, column `cc` of the block: two products, a bias row after each, a rectifier between. -/
theorem mlp_apply (v13 : Vec Ideal S5000x128 .f32) (v15 : Vec Ideal S128x128 .f32) (v18 : Vec Ideal S1x128 .f32)
    (v25 : Vec Ideal S128x64 .f32) (v28 : Vec Ideal S1x64 .f32) (r : Fin 5000) (cc : Fin 64) :
    k2_pay3 (F := Ideal) v13 v15 v18 v25 v28 (ix2 r cc)
      = Ideal.ofBits .f32 0x3F000000#32 * ((∑ k : Fin 128, max ((∑ l : Fin 128, v13 (ix2 r l) * v15 (ix2 l k))
          + v18 (ix2 (0 : Fin 1) k)) (Ideal.ofBits .f32 0x00000000#32) * v25 (ix2 k cc)) + v28 (ix2 (0 : Fin 1) cc)) := by
  unfold k2_pay3
  rw [shapeCast_self v18 _, shapeCast_self v28 _]
  refine congrArg₂ (fun a b => Ideal.ofBits .f32 0x3F000000#32 * (a + b)) ?_ ?_
  · refine (Cert.LibPlainMatmul.matmul_zero_apply 5000 128 64 none _ _ r cc).trans (Finset.sum_congr rfl fun k _ => ?_)
    refine congrArg₂ (fun a b => max (a + b) (Ideal.ofBits .f32 0x00000000#32) * v25 (ix2 k cc)) ?_ ?_
    · exact Cert.LibPlainMatmul.matmul_zero_apply 5000 128 128 none _ _ r k
    · exact broadcastTo_1b_ab_apply v18 _ r k
  · exact broadcastTo_1b_ab_apply v28 _ r cc

/-- A block's result is the reference's last stage read where the block lies, when the loaded blocks hold the
    reference's earlier stages (and the arguments) at the rows `5000·tv …`, the small operands whole. -/
theorem point (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal))
    (a4 : (⟨Cert.ReferenceIdeal.S128x64, .f32⟩ : BufTy).Contents (Elt Ideal)) (a5 : (⟨Cert.ReferenceIdeal.S64, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal))
    (a8 : (⟨Cert.ReferenceIdeal.S128x64, .f32⟩ : BufTy).Contents (Elt Ideal)) (a9 : (⟨Cert.ReferenceIdeal.S64, .f32⟩ : BufTy).Contents (Elt Ideal))
    (x0 x1 : Vec Ideal S5000x64 .f32) (x2 : Vec Ideal S5000x1 .f32) (x3 : Vec Ideal S1x64 .f32)
    (x4 : Vec Ideal S5000x128 .f32) (x5 : Vec Ideal S128x128 .f32) (x6 : Vec Ideal S1x128 .f32)
    (x7 : Vec Ideal S128x64 .f32) (x8 : Vec Ideal S1x64 .f32) (tv : ℕ)
    (hx0 : ∀ (r : Fin 5000) (cc : Fin 64) (i : S100000x64.Idx), (i 0).val = tv * 5000 + r.val → (i 1).val = cc.val →
      x0 (ix2 r cc) = Cert.ReferenceIdeal.Read.val_main_v78 (F := Ideal) a0 a1 a2 a3 a4 i)
    (hx1 : ∀ (r : Fin 5000) (cc : Fin 64) (i : S100000x64.Idx), (i 0).val = tv * 5000 + r.val → (i 1).val = cc.val →
      x1 (ix2 r cc) = Cert.ReferenceIdeal.Read.val_main_v50 (F := Ideal) a0 a1 a2 a3 a4 i)
    (hx2 : ∀ (r : Fin 5000) (i : S100000x1.Idx), (i 0).val = tv * 5000 + r.val → (i 1).val = 0 →
      x2 (ix2 r (0 : Fin 1)) = Cert.ReferenceIdeal.Read.val_main_v79 (F := Ideal) a1 i)
    (hx3 : ∀ (cc : Fin 64) (i : S1x64.Idx), (i 0).val = 0 → (i 1).val = cc.val →
      x3 (ix2 (0 : Fin 1) cc) = Cert.ReferenceIdeal.Read.val_main_v83 (F := Ideal) a5 i)
    (hx4 : ∀ (r : Fin 5000) (l : Fin 128) (i : S100000x128.Idx), (i 0).val = tv * 5000 + r.val → (i 1).val = l.val →
      x4 (ix2 r l) = a0 i)
    (hx5 : ∀ (l k : Fin 128) (i : S128x128.Idx), (i 0).val = l.val → (i 1).val = k.val → x5 (ix2 l k) = a6 i)
    (hx6 : ∀ (k : Fin 128) (i : S1x128.Idx), (i 0).val = 0 → (i 1).val = k.val →
      x6 (ix2 (0 : Fin 1) k) = Cert.ReferenceIdeal.Read.val_main_v87 (F := Ideal) a7 i)
    (hx7 : ∀ (k : Fin 128) (cc : Fin 64) (i : S128x64.Idx), (i 0).val = k.val → (i 1).val = cc.val → x7 (ix2 k cc) = a8 i)
    (hx8 : ∀ (cc : Fin 64) (i : S1x64.Idx), (i 0).val = 0 → (i 1).val = cc.val →
      x8 (ix2 (0 : Fin 1) cc) = Cert.ReferenceIdeal.Read.val_main_v92 (F := Ideal) a9 i)
    (j : S5000x64.Idx) (i : S100000x64.Idx) (hi0 : (i 0).val = tv * 5000 + (j 0).val) (hi1 : (i 1).val = (j 1).val) :
    k2_pay1 (F := Ideal) (k2_pay2 x0 x1 x2 x3) (k2_pay3 x4 x5 x6 x7 x8) j
      = Cert.ReferenceIdeal.Read.val_main_v99 (F := Ideal) a0 a1 a2 a3 a4 a5 a6 a7 a8 a9 i := by
  obtain ⟨r, cc, rfl⟩ : ∃ (r : Fin 5000) (cc : Fin 64), j = ix2 r cc := ⟨j 0, j 1, eq_ix2 j⟩
  have hs : (∑ k : Fin 128, max ((∑ l : Fin 128, x4 (ix2 r l) * x5 (ix2 l k)) + x6 (ix2 (0 : Fin 1) k))
        (Ideal.ofBits .f32 0x00000000#32) * x7 (ix2 k cc))
      = ∑ k : Fin 128, Cert.ReferenceIdeal.Read.val_main_v90 (F := Ideal) a0 a6 a7 (Cert.ReferenceIdeal.Read.lidx_main_v91 i k) * a8 (Cert.ReferenceIdeal.Read.ridx_main_v91 i k) := by
    refine Finset.sum_congr rfl fun k _ => ?_
    rw [Cert.ReferenceIdeal.Read.val_main_v90_apply, Cert.ReferenceIdeal.Read.val_main_v89_apply, Cert.ReferenceIdeal.Read.val_main_v88_apply, Cert.ReferenceIdeal.Read.val_main_call1_v0_apply,
      Cert.ReferenceIdeal.Read.val_main_call1_cst_apply, Cert.ReferenceIdeal.Read.val_main_v86_apply,
      hx6 k (Cert.ReferenceIdeal.Read.idx_main_v88 (Cert.ReferenceIdeal.Read.lidx_main_v91 i k)) rfl rfl, hx7 k cc (Cert.ReferenceIdeal.Read.ridx_main_v91 i k) rfl hi1]
    rw [show (∑ l : Fin 128, x4 (ix2 r l) * x5 (ix2 l k))
        = ∑ l : Fin 128, a0 (Cert.ReferenceIdeal.Read.lidx_main_v86 (Cert.ReferenceIdeal.Read.lidx_main_v91 i k) l) * a6 (Cert.ReferenceIdeal.Read.ridx_main_v86 (Cert.ReferenceIdeal.Read.lidx_main_v91 i k) l) from
      Finset.sum_congr rfl fun l _ => by
        rw [hx4 r l (Cert.ReferenceIdeal.Read.lidx_main_v86 (Cert.ReferenceIdeal.Read.lidx_main_v91 i k) l) hi0 rfl, hx5 l k (Cert.ReferenceIdeal.Read.ridx_main_v86 (Cert.ReferenceIdeal.Read.lidx_main_v91 i k) l) rfl rfl]]
    rfl
  show k2_pay2 (F := Ideal) x0 x1 x2 x3 (ix2 r cc) + k2_pay3 (F := Ideal) x4 x5 x6 x7 x8 (ix2 r cc) = _
  rw [gnn_apply, mlp_apply, hs]
  rw [Cert.ReferenceIdeal.Read.val_main_v99_apply, Cert.ReferenceIdeal.Read.val_main_v96_apply, Cert.ReferenceIdeal.Read.val_main_v95_apply, Cert.ReferenceIdeal.Read.val_main_cst_16_apply, Cert.ReferenceIdeal.Read.val_main_v85_apply,
    Cert.ReferenceIdeal.Read.val_main_v82_apply, Cert.ReferenceIdeal.Read.val_main_v81_apply, Cert.ReferenceIdeal.Read.val_main_v80_apply, Cert.ReferenceIdeal.Read.val_main_v84_apply, Cert.ReferenceIdeal.Read.val_main_v98_apply,
    Cert.ReferenceIdeal.Read.val_main_v97_apply, Cert.ReferenceIdeal.Read.val_main_cst_17_apply, Cert.ReferenceIdeal.Read.val_main_v94_apply, Cert.ReferenceIdeal.Read.val_main_v93_apply, Cert.ReferenceIdeal.Read.val_main_v91_apply]
  rw [hx0 r cc i hi0 hi1, hx1 r cc i hi0 hi1, hx2 r (Cert.ReferenceIdeal.Read.idx_main_v80 i) hi0 rfl, hx3 cc (Cert.ReferenceIdeal.Read.idx_main_v84 i) rfl hi1,
    hx8 cc (Cert.ReferenceIdeal.Read.idx_main_v93 i) rfl hi1]
  rfl

/-! The block indices at grid point `t`, decided over the twenty points. -/
theorem idx_in0 : ∀ t : Fin cfg2.N, win2_0.index t (0 : Fin 2) = t.val ∧ win2_0.index t (1 : Fin 2) = 0 :=
  (by decide +kernel : ∀ t : Fin grid2.N, _)
theorem idx_in1 : ∀ t : Fin cfg2.N, win2_1.index t (0 : Fin 2) = t.val ∧ win2_1.index t (1 : Fin 2) = 0 :=
  (by decide +kernel : ∀ t : Fin grid2.N, _)
theorem idx_in2 : ∀ t : Fin cfg2.N, win2_2.index t (0 : Fin 2) = t.val ∧ win2_2.index t (1 : Fin 2) = 0 :=
  (by decide +kernel : ∀ t : Fin grid2.N, _)
theorem idx_in3 : ∀ t : Fin cfg2.N, win2_3.index t (0 : Fin 2) = 0 ∧ win2_3.index t (1 : Fin 2) = 0 :=
  (by decide +kernel : ∀ t : Fin grid2.N, _)
theorem idx_in4 : ∀ t : Fin cfg2.N, win2_4.index t (0 : Fin 2) = t.val ∧ win2_4.index t (1 : Fin 2) = 0 :=
  (by decide +kernel : ∀ t : Fin grid2.N, _)
theorem idx_in5 : ∀ t : Fin cfg2.N, win2_5.index t (0 : Fin 2) = 0 ∧ win2_5.index t (1 : Fin 2) = 0 :=
  (by decide +kernel : ∀ t : Fin grid2.N, _)
theorem idx_in6 : ∀ t : Fin cfg2.N, win2_6.index t (0 : Fin 2) = 0 ∧ win2_6.index t (1 : Fin 2) = 0 :=
  (by decide +kernel : ∀ t : Fin grid2.N, _)
theorem idx_in7 : ∀ t : Fin cfg2.N, win2_7.index t (0 : Fin 2) = 0 ∧ win2_7.index t (1 : Fin 2) = 0 :=
  (by decide +kernel : ∀ t : Fin grid2.N, _)
theorem idx_in8 : ∀ t : Fin cfg2.N, win2_8.index t (0 : Fin 2) = 0 ∧ win2_8.index t (1 : Fin 2) = 0 :=
  (by decide +kernel : ∀ t : Fin grid2.N, _)
theorem idx_out9 : ∀ t : Fin cfg2.N, win2_9.index t (0 : Fin 2) = t.val ∧ win2_9.index t (1 : Fin 2) = 0 :=
  (by decide +kernel : ∀ t : Fin grid2.N, _)

/-- Window 0's block at point `t` holds rows `5000·t …` of its array: entry `(r, k)` of the block is the array's entry at
    any index with those coordinates. -/
theorem in_0 (c : Dev nD) (t : Fin cfg2.N) (r : Fin 5000) (k : Fin 64) (i : S100000x64.Idx)
    (h0 : (i 0).val = t.val * 5000 + r.val) (h1 : (i 1).val = k.val) :
    iblk2 V c 0 t (ix2 r k) = V c main_v62 i := by
  have e0 : win2_0.index t (0 : Fin 2) = t.val := (idx_in0 t).1
  have e1 : win2_0.index t (1 : Fin 2) = 0 := (idx_in0 t).2
  show V c main_v62 (((cfg2.win 0).blk t).view.emb (ix2 r k)) = _
  refine congrArg (V c main_v62) ?_
  funext a; apply Fin.ext
  match a with
  | ⟨0, _⟩ => show win2_0.index t (0 : Fin 2) * 5000 + 1 * r.val = (i 0).val; omega
  | ⟨1, _⟩ => show win2_0.index t (1 : Fin 2) * 64 + 1 * k.val = (i 1).val; omega

/-- Window 1's block at point `t` holds rows `5000·t …` of its array: entry `(r, k)` of the block is the array's entry at
    any index with those coordinates. -/
theorem in_1 (c : Dev nD) (t : Fin cfg2.N) (r : Fin 5000) (k : Fin 64) (i : S100000x64.Idx)
    (h0 : (i 0).val = t.val * 5000 + r.val) (h1 : (i 1).val = k.val) :
    iblk2 V c 1 t (ix2 r k) = V c main_v48_0 i := by
  have e0 : win2_1.index t (0 : Fin 2) = t.val := (idx_in1 t).1
  have e1 : win2_1.index t (1 : Fin 2) = 0 := (idx_in1 t).2
  show V c main_v48_0 (((cfg2.win 1).blk t).view.emb (ix2 r k)) = _
  refine congrArg (V c main_v48_0) ?_
  funext a; apply Fin.ext
  match a with
  | ⟨0, _⟩ => show win2_1.index t (0 : Fin 2) * 5000 + 1 * r.val = (i 0).val; omega
  | ⟨1, _⟩ => show win2_1.index t (1 : Fin 2) * 64 + 1 * k.val = (i 1).val; omega

/-- Window 2's block at point `t` holds rows `5000·t …` of its array: entry `(r, k)` of the block is the array's entry at
    any index with those coordinates. -/
theorem in_2 (c : Dev nD) (t : Fin cfg2.N) (r : Fin 5000) (k : Fin 1) (i : S100000x1.Idx)
    (h0 : (i 0).val = t.val * 5000 + r.val) (h1 : (i 1).val = k.val) :
    iblk2 V c 2 t (ix2 r k) = V c main_v28 i := by
  have e0 : win2_2.index t (0 : Fin 2) = t.val := (idx_in2 t).1
  have e1 : win2_2.index t (1 : Fin 2) = 0 := (idx_in2 t).2
  show V c main_v28 (((cfg2.win 2).blk t).view.emb (ix2 r k)) = _
  refine congrArg (V c main_v28) ?_
  funext a; apply Fin.ext
  match a with
  | ⟨0, _⟩ => show win2_2.index t (0 : Fin 2) * 5000 + 1 * r.val = (i 0).val; omega
  | ⟨1, _⟩ => show win2_2.index t (1 : Fin 2) * 1 + 1 * k.val = (i 1).val; omega

/-- Window 3's block at every point is its whole array. -/
theorem in_3 (c : Dev nD) (t : Fin cfg2.N) (r : Fin 1) (k : Fin 64) (i : S1x64.Idx)
    (h0 : (i 0).val = r.val) (h1 : (i 1).val = k.val) :
    iblk2 V c 3 t (ix2 r k) = V c main_v30 i := by
  have e0 : win2_3.index t (0 : Fin 2) = 0 := (idx_in3 t).1
  have e1 : win2_3.index t (1 : Fin 2) = 0 := (idx_in3 t).2
  show V c main_v30 (((cfg2.win 3).blk t).view.emb (ix2 r k)) = _
  refine congrArg (V c main_v30) ?_
  funext a; apply Fin.ext
  match a with
  | ⟨0, _⟩ => show win2_3.index t (0 : Fin 2) * 1 + 1 * r.val = (i 0).val; omega
  | ⟨1, _⟩ => show win2_3.index t (1 : Fin 2) * 64 + 1 * k.val = (i 1).val; omega

/-- Window 4's block at point `t` holds rows `5000·t …` of its array: entry `(r, k)` of the block is the array's entry at
    any index with those coordinates. -/
theorem in_4 (c : Dev nD) (t : Fin cfg2.N) (r : Fin 5000) (k : Fin 128) (i : S100000x128.Idx)
    (h0 : (i 0).val = t.val * 5000 + r.val) (h1 : (i 1).val = k.val) :
    iblk2 V c 4 t (ix2 r k) = V c main_arg0 i := by
  have e0 : win2_4.index t (0 : Fin 2) = t.val := (idx_in4 t).1
  have e1 : win2_4.index t (1 : Fin 2) = 0 := (idx_in4 t).2
  show V c main_arg0 (((cfg2.win 4).blk t).view.emb (ix2 r k)) = _
  refine congrArg (V c main_arg0) ?_
  funext a; apply Fin.ext
  match a with
  | ⟨0, _⟩ => show win2_4.index t (0 : Fin 2) * 5000 + 1 * r.val = (i 0).val; omega
  | ⟨1, _⟩ => show win2_4.index t (1 : Fin 2) * 128 + 1 * k.val = (i 1).val; omega

/-- Window 5's block at every point is its whole array. -/
theorem in_5 (c : Dev nD) (t : Fin cfg2.N) (r : Fin 128) (k : Fin 128) (i : S128x128.Idx)
    (h0 : (i 0).val = r.val) (h1 : (i 1).val = k.val) :
    iblk2 V c 5 t (ix2 r k) = V c main_arg6 i := by
  have e0 : win2_5.index t (0 : Fin 2) = 0 := (idx_in5 t).1
  have e1 : win2_5.index t (1 : Fin 2) = 0 := (idx_in5 t).2
  show V c main_arg6 (((cfg2.win 5).blk t).view.emb (ix2 r k)) = _
  refine congrArg (V c main_arg6) ?_
  funext a; apply Fin.ext
  match a with
  | ⟨0, _⟩ => show win2_5.index t (0 : Fin 2) * 128 + 1 * r.val = (i 0).val; omega
  | ⟨1, _⟩ => show win2_5.index t (1 : Fin 2) * 128 + 1 * k.val = (i 1).val; omega

/-- Window 6's block at every point is its whole array. -/
theorem in_6 (c : Dev nD) (t : Fin cfg2.N) (r : Fin 1) (k : Fin 128) (i : S1x128.Idx)
    (h0 : (i 0).val = r.val) (h1 : (i 1).val = k.val) :
    iblk2 V c 6 t (ix2 r k) = V c main_v31 i := by
  have e0 : win2_6.index t (0 : Fin 2) = 0 := (idx_in6 t).1
  have e1 : win2_6.index t (1 : Fin 2) = 0 := (idx_in6 t).2
  show V c main_v31 (((cfg2.win 6).blk t).view.emb (ix2 r k)) = _
  refine congrArg (V c main_v31) ?_
  funext a; apply Fin.ext
  match a with
  | ⟨0, _⟩ => show win2_6.index t (0 : Fin 2) * 1 + 1 * r.val = (i 0).val; omega
  | ⟨1, _⟩ => show win2_6.index t (1 : Fin 2) * 128 + 1 * k.val = (i 1).val; omega

/-- Window 7's block at every point is its whole array. -/
theorem in_7 (c : Dev nD) (t : Fin cfg2.N) (r : Fin 128) (k : Fin 64) (i : S128x64.Idx)
    (h0 : (i 0).val = r.val) (h1 : (i 1).val = k.val) :
    iblk2 V c 7 t (ix2 r k) = V c main_arg8 i := by
  have e0 : win2_7.index t (0 : Fin 2) = 0 := (idx_in7 t).1
  have e1 : win2_7.index t (1 : Fin 2) = 0 := (idx_in7 t).2
  show V c main_arg8 (((cfg2.win 7).blk t).view.emb (ix2 r k)) = _
  refine congrArg (V c main_arg8) ?_
  funext a; apply Fin.ext
  match a with
  | ⟨0, _⟩ => show win2_7.index t (0 : Fin 2) * 128 + 1 * r.val = (i 0).val; omega
  | ⟨1, _⟩ => show win2_7.index t (1 : Fin 2) * 64 + 1 * k.val = (i 1).val; omega

/-- Window 8's block at every point is its whole array. -/
theorem in_8 (c : Dev nD) (t : Fin cfg2.N) (r : Fin 1) (k : Fin 64) (i : S1x64.Idx)
    (h0 : (i 0).val = r.val) (h1 : (i 1).val = k.val) :
    iblk2 V c 8 t (ix2 r k) = V c main_v32 i := by
  have e0 : win2_8.index t (0 : Fin 2) = 0 := (idx_in8 t).1
  have e1 : win2_8.index t (1 : Fin 2) = 0 := (idx_in8 t).2
  show V c main_v32 (((cfg2.win 8).blk t).view.emb (ix2 r k)) = _
  refine congrArg (V c main_v32) ?_
  funext a; apply Fin.ext
  match a with
  | ⟨0, _⟩ => show win2_8.index t (0 : Fin 2) * 1 + 1 * r.val = (i 0).val; omega
  | ⟨1, _⟩ => show win2_8.index t (1 : Fin 2) * 64 + 1 * k.val = (i 1).val; omega

/-! ## The result -/

/-- Where point `t`'s block of window 9 lies in its array: rows `5000·t …`, all columns. -/
theorem emb9_0 (t : Fin cfg2.N) (y : S5000x64.Idx) : ((((cfg2.win 9).blk t).view.emb y) 0).val = t.val * 5000 + (y 0).val := by
  have e0 : win2_9.index t (0 : Fin 2) = t.val := (idx_out9 t).1
  show win2_9.index t (0 : Fin 2) * 5000 + 1 * (y 0).val = _; omega
theorem emb9_1 (t : Fin cfg2.N) (y : S5000x64.Idx) : ((((cfg2.win 9).blk t).view.emb y) 1).val = (y 1).val := by
  have e1 : win2_9.index t (1 : Fin 2) = 0 := (idx_out9 t).2
  show win2_9.index t (1 : Fin 2) * 64 + 1 * (y 1).val = _; omega

/-- What point `t` writes back to window 9 is block `t` of any array `G` whose entries, at the rows the block covers, are
    the body's results. -/
theorem flushed9_of (c : Dev nD) (t : Fin cfg2.N) (G : Buf (Elt Ideal) ((c : Thread nD τ).loc main_v63))
    (hpt : ∀ (j : S5000x64.Idx) (i : S100000x64.Idx), (i 0).val = t.val * 5000 + (j 0).val → (i 1).val = (j 1).val →
      k2_pay1 (F := Ideal) (k2_pay2 (iblk2 V c 0 t) (iblk2 V c 1 t) (iblk2 V c 2 t) (iblk2 V c 3 t)) (k2_pay3 (iblk2 V c 4 t) (iblk2 V c 5 t) (iblk2 V c 6 t) (iblk2 V c 7 t) (iblk2 V c 8 t)) j = G i) :
    (dat2 V c).flushed 9 t = ((cfg2.win 9).blk t).view.read (Elt Ideal) G := by
  show (cfg2.win 9).cut (grid2.coords t) ((dat2 V c).after 9 t) = _
  rw [after2_9]
  unfold out2_9
  rw [View.canon_unit_zero hz]
  simp only [View.ld_unit_zero (S := S5000x64) hz, View.ld_unit_zero (S := S5000x1) hz, View.ld_unit_zero (S := S1x64) hz, View.ld_unit_zero (S := S5000x128) hz, View.ld_unit_zero (S := S128x128) hz, View.ld_unit_zero (S := S1x128) hz, View.ld_unit_zero (S := S128x64) hz]
  funext j
  exact hpt ((win2_9).xinj (grid2.coords t) j) (((cfg2.win 9).blk t).view.emb j) (emb9_0 t j) (emb9_1 t j)

/-- An index of the array lies in point `t`'s block of window 9 iff each coordinate is in the block's range. -/
theorem mem_blk9 (t : Fin cfg2.N) (i : S100000x64.Idx) :
    i ∈ ((cfg2.win 9).blk t).view.set ↔ ∀ a : Fin 2, win2_9.index t a * S5000x64.size a ≤ (i a).val
      ∧ (i a).val < win2_9.index t a * S5000x64.size a + S5000x64.size a := by
  show i ∈ ((View.whole main_v63).slice (win2_9.rect t)).set ↔ _
  rw [View.set_slice_whole, Rect.mem_set_unit]
  exact Iff.rfl

/-- Row `p` of the array lies in the block of point `p / 5000`: the blocks of window 9 cover its array. -/
theorem cover9 (i : S100000x64.Idx) :
    ∃ t : Fin cfg2.N, (cfg2.win 9).flush t = true ∧ i ∈ ((cfg2.win 9).blk t).view.set := by
  have hi0 : (i 0).val < 100000 := (i 0).isLt
  have hi1 : (i 1).val < 64 := (i 1).isLt
  have ht : (i 0).val / 5000 < 20 := by omega
  refine ⟨⟨(i 0).val / 5000, ht⟩, flush2_9 _, ?_⟩
  rw [mem_blk9]
  have e0 : win2_9.index ⟨(i 0).val / 5000, ht⟩ (0 : Fin 2) = (i 0).val / 5000 := (idx_out9 ⟨(i 0).val / 5000, ht⟩).1
  have e1 : win2_9.index ⟨(i 0).val / 5000, ht⟩ (1 : Fin 2) = 0 := (idx_out9 ⟨(i 0).val / 5000, ht⟩).2
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    omega
  | ⟨1, _⟩ =>
    show win2_9.index ⟨(i 0).val / 5000, ht⟩ (1 : Fin 2) * 64 ≤ (i 1).val
      ∧ (i 1).val < win2_9.index ⟨(i 0).val / 5000, ht⟩ (1 : Fin 2) * 64 + 64
    omega

/-- The body's result at an entry of point `t`'s block is the reference's result at that entry's place in the array, when
    the region's input arrays hold the reference's earlier stages and the arguments. -/
theorem entry9 (c : Dev nD) (t : Fin cfg2.N) (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal))
    (a4 : (⟨Cert.ReferenceIdeal.S128x64, .f32⟩ : BufTy).Contents (Elt Ideal)) (a5 : (⟨Cert.ReferenceIdeal.S64, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal))
    (a8 : (⟨Cert.ReferenceIdeal.S128x64, .f32⟩ : BufTy).Contents (Elt Ideal)) (a9 : (⟨Cert.ReferenceIdeal.S64, .f32⟩ : BufTy).Contents (Elt Ideal))
    (hA : V c main_v62 = Cert.ReferenceIdeal.Read.val_main_v78 (F := Ideal) a0 a1 a2 a3 a4) (hH : V c main_v48_0 = Cert.ReferenceIdeal.Read.val_main_v50 (F := Ideal) a0 a1 a2 a3 a4)
    (hD : V c main_v28 = Cert.ReferenceIdeal.Read.val_main_v79 (F := Ideal) a1) (hB : V c main_v30 = Cert.ReferenceIdeal.Read.val_main_v83 (F := Ideal) a5)
    (hX : V c main_arg0 = a0) (hW1 : V c main_arg6 = a6) (hB1 : V c main_v31 = Cert.ReferenceIdeal.Read.val_main_v87 (F := Ideal) a7)
    (hW2 : V c main_arg8 = a8) (hB2 : V c main_v32 = Cert.ReferenceIdeal.Read.val_main_v92 (F := Ideal) a9)
    (j : S5000x64.Idx) (i : S100000x64.Idx) (h0 : (i 0).val = t.val * 5000 + (j 0).val) (h1 : (i 1).val = (j 1).val) :
    k2_pay1 (F := Ideal) (k2_pay2 (iblk2 V c 0 t) (iblk2 V c 1 t) (iblk2 V c 2 t) (iblk2 V c 3 t)) (k2_pay3 (iblk2 V c 4 t) (iblk2 V c 5 t) (iblk2 V c 6 t) (iblk2 V c 7 t) (iblk2 V c 8 t)) j = Cert.ReferenceIdeal.Read.val_main_v99 (F := Ideal) a0 a1 a2 a3 a4 a5 a6 a7 a8 a9 i :=
  point a0 a1 a2 a3 a4 a5 a6 a7 a8 a9 (iblk2 V c 0 t) (iblk2 V c 1 t) (iblk2 V c 2 t) (iblk2 V c 3 t) (iblk2 V c 4 t) (iblk2 V c 5 t) (iblk2 V c 6 t) (iblk2 V c 7 t) (iblk2 V c 8 t) t.val
      (fun r k i h0 h1 => (in_0 V c t r k i h0 h1).trans (congrFun hA i))
      (fun r k i h0 h1 => (in_1 V c t r k i h0 h1).trans (congrFun hH i))
      (fun r i h0 h1 => (in_2 V c t r (0 : Fin 1) i h0 h1).trans (congrFun hD i))
      (fun k i h0 h1 => (in_3 V c t (0 : Fin 1) k i h0 h1).trans (congrFun hB i))
      (fun r k i h0 h1 => (in_4 V c t r k i h0 h1).trans (congrFun hX i))
      (fun l k i h0 h1 => (in_5 V c t l k i h0 h1).trans (congrFun hW1 i))
      (fun k i h0 h1 => (in_6 V c t (0 : Fin 1) k i h0 h1).trans (congrFun hB1 i))
      (fun k cc i h0 h1 => (in_7 V c t k cc i h0 h1).trans (congrFun hW2 i))
      (fun k i h0 h1 => (in_8 V c t (0 : Fin 1) k i h0 h1).trans (congrFun hB2 i))
      j i h0 h1

/-- THE RESULT after the region: the reference's result, when the region's input arrays hold the reference's earlier
    stages and the arguments. -/
theorem final9 (c : Dev nD) (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal))
    (a4 : (⟨Cert.ReferenceIdeal.S128x64, .f32⟩ : BufTy).Contents (Elt Ideal)) (a5 : (⟨Cert.ReferenceIdeal.S64, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal))
    (a8 : (⟨Cert.ReferenceIdeal.S128x64, .f32⟩ : BufTy).Contents (Elt Ideal)) (a9 : (⟨Cert.ReferenceIdeal.S64, .f32⟩ : BufTy).Contents (Elt Ideal))
    (hA : V c main_v62 = Cert.ReferenceIdeal.Read.val_main_v78 (F := Ideal) a0 a1 a2 a3 a4) (hH : V c main_v48_0 = Cert.ReferenceIdeal.Read.val_main_v50 (F := Ideal) a0 a1 a2 a3 a4)
    (hD : V c main_v28 = Cert.ReferenceIdeal.Read.val_main_v79 (F := Ideal) a1) (hB : V c main_v30 = Cert.ReferenceIdeal.Read.val_main_v83 (F := Ideal) a5)
    (hX : V c main_arg0 = a0) (hW1 : V c main_arg6 = a6) (hB1 : V c main_v31 = Cert.ReferenceIdeal.Read.val_main_v87 (F := Ideal) a7)
    (hW2 : V c main_arg8 = a8) (hB2 : V c main_v32 = Cert.ReferenceIdeal.Read.val_main_v92 (F := Ideal) a9) :
    (dat2 V c).arrAt 9 cfg2.N = Cert.ReferenceIdeal.Read.val_main_v99 (F := Ideal) a0 a1 a2 a3 a4 a5 a6 a7 a8 a9 :=
  (dat2 V c).arrAt_eq_of_cover 9 _
    (fun t _ => flushed9_of V c t _ (fun j i h0 h1 =>
      entry9 V c t a0 a1 a2 a3 a4 a5 a6 a7 a8 a9 hA hH hD hB hX hW1 hB1 hW2 hB2 j i h0 h1)) cover9

end Cert.KernelIdeal.Region2

end
-- ==== Proof.ChainD.lean ====
/-
  After the third kernel: the program's result.

  The third kernel finds in its input arrays the reference's second aggregation and second product, the inverse-degree
  column, the bias rows, the node features and the perceptron's weights, so its result array holds the reference's
  result: half the second convolution plus half the perceptron, entry by entry.
-/
import proofs.«149143_j24481313587803_2_alg».proof.Proof.ChainC
import proofs.«149143_j24481313587803_2_alg».proof.Proof.Region2

set_option maxRecDepth 16384

noncomputable section

namespace Cert.KernelIdeal.Chain

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- THE RESULT: the reference's last stage of the arguments as launched. -/
theorem W6_v63 (c : Dev nD) : W6 (F := Ideal) m ρ c (Proc.devRef .tc main_v63) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 9).trans (Cert.KernelIdeal.Region2.final9 (V5 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (W5_v62 m ρ c) (W5_v48_0 m ρ c) (W5_v28b m ρ c) (W5_v30 m ρ c) (W5_arg0 m ρ c) (W5_arg6 m ρ c) (W5_v31 m ρ c)
    (W5_arg8 m ρ c) (W5_v32 m ρ c))

end Cert.KernelIdeal.Chain

end
-- ==== Proof.lean ====
/-
  A two-layer graph convolution fused with a two-layer perceptron, over 100000 nodes and 1600000 edges: the kernel
  program against the plain reference, as extended reals.

  With `deg = 1 + (number of edges arriving)`, `norm e = deg(src e)^(-1/2) · deg(dst e)^(-1/2)` and
  `conv (h) = (sum over edges arriving at a node of h(src e) · norm e) + h / deg`, both programs compute
  `½ · (conv (max (conv (x·W₁) + b₁, 0) · W₂) + b₂) + ½ · (max (x·M₁ + c₁, 0) · M₂ + c₂)`.
  The reference does it in one stretch of host operations. The kernel program interleaves three row-blocked kernels
  (twenty blocks of 5000 nodes each) with the same host gathers and scatter-adds:
    * kernel one forms `x·W₁` block by block — each block's rows of the product are the rows of the whole product;
    * the host aggregates it over the edges;
    * kernel two forms `max (agg + (x·W₁)/deg + b₁, 0) · W₂` block by block;
    * the host aggregates that;
    * kernel three forms the weighted sum of the second combine and the whole perceptron branch, block by block.
  Every change of float format in the kernels (to bf16 before a product or a gather, back to f32 after) is the identity
  on extended reals, a product into a zero accumulator is the plain sum of products, and a row-blocked computation whose
  every output row depends only on the same row of its row-blocked inputs (and on the whole small operands) is the
  restriction of one whole-array function; so after each kernel its result arrays hold the reference's corresponding
  stage, the host stretches in between apply the reference's own operations to them, and the program's result is the
  reference's result. No law of arithmetic beyond reading both sides entry by entry is needed: the two sides associate
  and order every sum and product alike, so the precondition (finite inputs) is never opened.

  The frames of the two kernel programs are the generated ones; the reference's frame is its generated run with the
  result dropped; the idealization rewrote no operation, so `preserves` is `True`.
-/
import proofs.«149143_j24481313587803_2_alg».proof.Defs
import proofs.«149143_j24481313587803_2_alg».proof.Proof.Gen.Kernel
import proofs.«149143_j24481313587803_2_alg».proof.Proof.Gen.Kernel.Frame
import proofs.«149143_j24481313587803_2_alg».proof.Proof.Gen.KernelIdeal
import proofs.«149143_j24481313587803_2_alg».proof.Proof.Gen.KernelIdeal.Frame
import proofs.«149143_j24481313587803_2_alg».proof.Proof.Gen.ReferenceIdeal
import proofs.«149143_j24481313587803_2_alg».proof.Proof.Gen.Pre_finite_inputs
import proofs.«149143_j24481313587803_2_alg».proof.Proof.Gen.ReferenceIdeal.Run
import proofs.«149143_j24481313587803_2_alg».proof.Proof.Gen.ReferenceIdeal.Read
import proofs.«149143_j24481313587803_2_alg».proof.Proof.KRun
import proofs.«149143_j24481313587803_2_alg».proof.Proof.ChainD
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the kernel program's
    arguments in their result arrays: the kernel program by the chain through its segments, the reference by its run. -/
theorem algebraic : Cert.algebraic_KernelIdeal_ReferenceIdeal := by
  intro m ρ m' ρ' _ hagree
  refine ⟨fun c => Cert.ReferenceIdeal.Read.val_main_v99 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W6_v63 m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v99_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
